-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : IVec S8192 32) (main_arg1 : IVec S8192 32) (main_arg2 : IVec S8192 32) (main_arg3 : FVec F S100000x64 .f32) (main_arg4 : FVec F S100000x64 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg4
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S8192 : Shape := ⟨1, ![8192]⟩
abbrev S100000x64 : Shape := ⟨2, ![100000, 64]⟩
abbrev S_ : Shape := ⟨0, ![]⟩
abbrev S8192x1 : Shape := ⟨2, ![8192, 1]⟩
abbrev S8192x64 : Shape := ⟨2, ![8192, 64]⟩
abbrev S8x8x128 : Shape := ⟨3, ![8, 8, 128]⟩
abbrev S1024x64 : Shape := ⟨2, ![1024, 64]⟩
abbrev S1x8x128 : Shape := ⟨3, ![1, 8, 128]⟩
abbrev S1024 : Shape := ⟨1, ![1024]⟩
abbrev S1024x1 : Shape := ⟨2, ![1024, 1]⟩
abbrev S8x128 : Shape := ⟨2, ![8, 128]⟩
abbrev S1024x1024 : Shape := ⟨2, ![1024, 1024]⟩
abbrev S100000 : Shape := ⟨1, ![100000]⟩
abbrev S1 : Shape := ⟨1, ![1]⟩
abbrev S2 : Shape := ⟨1, ![2]⟩

abbrev nBuf : Space → Nat
  | .hbm => 86
  | .vmem => 13
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192, .i32⟩
  | .hbm, ⟨3, _⟩ => ⟨S100000x64, .f32⟩
  | .hbm, ⟨4, _⟩ => ⟨S100000x64, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x64, .f32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x64, .f32⟩
  | .hbm, ⟨23, _⟩ => ⟨S8x8x128, .f32⟩
  | .hbm, ⟨24, _⟩ => ⟨S8x8x128, .f32⟩
  | .hbm, ⟨25, _⟩ => ⟨S_, .i32⟩
  | .hbm, ⟨26, _⟩ => ⟨S100000, .i32⟩
  | .hbm, ⟨27, _⟩ => ⟨S_, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S_, .i32⟩
  | .hbm, ⟨40, _⟩ => ⟨S8192, .i32⟩
  | .hbm, ⟨41, _⟩ => ⟨S100000, .i32⟩
  | .hbm, ⟨42, _⟩ => ⟨S_, .i32⟩
  | .hbm, ⟨43, _⟩ => ⟨S100000, .i32⟩
  | .hbm, ⟨44, _⟩ => ⟨S100000, .i1⟩
  | .hbm, ⟨45, _⟩ => ⟨S100000, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S_, .i32⟩
  | .hbm, ⟨50, _⟩ => ⟨S100000, .i32⟩
  | .hbm, ⟨51, _⟩ => ⟨S_, .i32⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S8192x1, .i32⟩
  | .hbm, ⟨63, _⟩ => ⟨S_, .i32⟩
  | .hbm, ⟨64, _⟩ => ⟨S8192, .i32⟩
  | .hbm, ⟨65, _⟩ => ⟨S100000, .i32⟩
  | .hbm, ⟨66, _⟩ => ⟨S_, .i32⟩
  | .hbm, ⟨67, _⟩ => ⟨S100000, .i32⟩
  | .hbm, ⟨68, _⟩ => ⟨S100000, .i1⟩
  | .hbm, ⟨69, _⟩ => ⟨S100000, .i32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1, .f32⟩
  | .hbm, ⟨84, _⟩ => ⟨S1, .f32⟩
  | .hbm, ⟨85, _⟩ => ⟨S2, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1x8x128, .f32⟩
  | .local _ .vmem, ⟨5, _⟩ => ⟨S1x8x128, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1x8x128, .f32⟩
  | .local _ .vmem, ⟨11, _⟩ => ⟨S1x8x128, .f32⟩
  | .local _ .vmem, ⟨12, _⟩ => ⟨S8x128, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_c_4 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_9 : Ref sig .tc := ⟨.hbm, 46, rfl⟩
abbrev main_v29 : Ref sig .tc := ⟨.hbm, 47, rfl⟩
abbrev main_v30 : Ref sig .tc := ⟨.hbm, 48, rfl⟩
abbrev main_c_10 : Ref sig .tc := ⟨.hbm, 49, rfl⟩
abbrev main_v31 : Ref sig .tc := ⟨.hbm, 50, rfl⟩
abbrev main_c_11 : Ref sig .tc := ⟨.hbm, 51, rfl⟩
abbrev main_call1_v0 : Ref sig .tc := ⟨.hbm, 52, rfl⟩
abbrev main_call1_v1 : Ref sig .tc := ⟨.hbm, 53, rfl⟩
abbrev main_v32 : Ref sig .tc := ⟨.hbm, 54, rfl⟩
abbrev main_c_12 : Ref sig .tc := ⟨.hbm, 55, rfl⟩
abbrev main_v33 : Ref sig .tc := ⟨.hbm, 56, rfl⟩
abbrev main_v34 : Ref sig .tc := ⟨.hbm, 57, rfl⟩
abbrev main_c_13 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_14 : Ref sig .tc := ⟨.hbm, 63, rfl⟩
abbrev main_v39 : Ref sig .tc := ⟨.hbm, 64, rfl⟩
abbrev main_v40 : Ref sig .tc := ⟨.hbm, 65, rfl⟩
abbrev main_c_15 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_16 : Ref sig .tc := ⟨.hbm, 70, rfl⟩
abbrev main_v44 : Ref sig .tc := ⟨.hbm, 71, rfl⟩
abbrev main_v45 : Ref sig .tc := ⟨.hbm, 72, rfl⟩
abbrev main_cst : Ref sig .tc := ⟨.hbm, 73, rfl⟩
abbrev main_v46 : Ref sig .tc := ⟨.hbm, 74, rfl⟩
abbrev main_cst_17 : Ref sig .tc := ⟨.hbm, 75, rfl⟩
abbrev main_v47 : Ref sig .tc := ⟨.hbm, 76, rfl⟩
abbrev main_cst_18 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_15 : BitVec 32 := 0#32
  let v41 : BitVec 1 := Scalar.cmpi .ne v40 c0_i32_15
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  shapeCasts_S1024_S1x8x128 : S1024.ShapeCasts S1x8x128
  inb_S1x8x128_S1x8x128_0_0_0 : ∀ a, (![0, 0, 0] : Fin 3 → Nat) a + S1x8x128.size a ≤ S1x8x128.size a
  h_S1x8x128 : 0 < S1x8x128.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  reduces_S1024x1024_S1024 : S1024x1024.Reduces [1] S1024
  shapeCasts_S1024_S8x128 : S1024.ShapeCasts S8x128
  shapeCasts_S8x128_S1x8x128 : S8x128.ShapeCasts S1x8x128
  bcast_S_S100000 : S_.BroadcastsInDim S100000 (![] : Fin 0 → Fin S100000.rank)
  natLt_1_32 : 1 < 32
  reducesTo_S100000_S_d0 : S100000.ReducesTo [0] S_
  h_S_ : 0 < S_.numel
  reducesTo_S8x8x128_S_d0_1_2 : S8x8x128.ReducesTo [0, 1, 2] S_
  bcast_S_S1 : S_.BroadcastsInDim S1 (![] : Fin 0 → Fin S1.rank)
  concatenates_S1_S1_S2_d0 : Shape.Concatenates [S1, S1] S2 0
  gather_S100000x64_S8192x1_S8192x64_1_0_n_n_0_1_164_wf : GatherDims.WF S100000x64 S8192x1 S8192x64 [1] [0] [] [0] [] 1 ![1, 64]
  dot_S1024x64_S1024x64_S1024x1024_1_1_0_0_n_n_wf : DotDims.WF S1024x64 S1024x64 S1024x1024 [1] [1] [0] [0] [] []
  scatter_S100000_S8192x1_S8192_n_0_0_1_wf : ScatterDims.WF S100000 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x128.size a ≤ S8x8x128.size a
  hwx1_2 : ∀ i : grid1.Coords, EltTy.bits .f32 = 32 ∨ (Rect.block (s := S8x8x128) S1x8x128.size (cc1_transform_2 i) (hinb1_2 i)).WholeWords (EltTy.packing .f32)

variable [Facts₀]

def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def scatter_S100000_S8192x1_S8192_n_0_0_1 : ScatterDims S100000 S8192x1 S8192 where
  updateWindowDims := []
  insertedWindowDims := [0]
  scatterDimsToOperandDims := [0]
  indexVectorDim := 1
  wf := scatter_S100000_S8192x1_S8192_n_0_0_1_wf

abbrev win0_0 : Pipeline.Window sig grid0 :=
  Pipeline.Window.ofSpec (Memref.whole main_v6) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192 : Shape := ⟨1, ![8192]⟩
abbrev S100000x64 : Shape := ⟨2, ![100000, 64]⟩
abbrev S_ : Shape := ⟨0, ![]⟩
abbrev S8192x1 : Shape := ⟨2, ![8192, 1]⟩
abbrev S8192x64 : Shape := ⟨2, ![8192, 64]⟩
abbrev S64x8192 : Shape := ⟨2, ![64, 8192]⟩
abbrev S8192x8192 : Shape := ⟨2, ![8192, 8192]⟩
abbrev S100000 : Shape := ⟨1, ![100000]⟩
abbrev S1 : Shape := ⟨1, ![1]⟩
abbrev S2 : Shape := ⟨1, ![2]⟩

abbrev nBuf : Space → Nat
  | .hbm => 130
  | .vmem => 0
  | .smem => 0
  | _ => 0

abbrev hbmTy0_0 (i : Nat) : BufTy := match i % 128 with
  | 0 => ⟨S8192, .i32⟩
  | 1 => ⟨S8192, .i32⟩
  | 2 => ⟨S8192, .i32⟩
  | 3 => ⟨S100000x64, .f32⟩
  | 4 => ⟨S100000x64, .f32⟩
  | 5 => ⟨S_, .i32⟩
  | 6 => ⟨S8192, .i32⟩
  | 7 => ⟨S8192, .i1⟩
  | 8 => ⟨S_, .i32⟩
  | 9 => ⟨S8192, .i32⟩
  | 10 => ⟨S8192, .i32⟩
  | 11 => ⟨S8192, .i32⟩
  | 12 => ⟨S8192x1, .i32⟩
  | 13 => ⟨S8192x64, .f32⟩
  | 14 => ⟨S8192x64, .f32⟩
  | 15 => ⟨S_, .f32⟩
  | 16 => ⟨S8192, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x64, .f32⟩
  | 23 => ⟨S8192x64, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x64, .f32⟩
  | 33 => ⟨S8192x64, .f32⟩
  | 34 => ⟨S_, .f32⟩
  | 35 => ⟨S8192, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x64, .f32⟩
  | 42 => ⟨S8192x64, .f32⟩
  | 43 => ⟨S8192x64, .f32⟩
  | 44 => ⟨S_, .f32⟩
  | 45 => ⟨S8192, .f32⟩
  | 46 => ⟨S_, .f32⟩
  | 47 => ⟨S8192, .f32⟩
  | 48 => ⟨S8192, .f32⟩
  | 49 => ⟨S8192, .f32⟩
  | 50 => ⟨S8192, .f32⟩
  | 51 => ⟨S_, .f32⟩
  | 52 => ⟨S8192, .f32⟩
  | 53 => ⟨S8192, .f32⟩
  | 54 => ⟨S8192, .f32⟩
  | 55 => ⟨S8192, .f32⟩
  | 56 => ⟨S8192, .f32⟩
  | 57 => ⟨S_, .f32⟩
  | 58 => ⟨S_, .f32⟩
  | 59 => ⟨S_, .f32⟩
  | 60 => ⟨S_, .f32⟩
  | 61 => ⟨S64x8192, .f32⟩
  | 62 => ⟨S8192x8192, .f32⟩
  | 63 => ⟨S_, .f32⟩
  | 64 => ⟨S8192x8192, .f32⟩
  | 65 => ⟨S8192x8192, .f32⟩
  | 66 => ⟨S8192x8192, .f32⟩
  | 67 => ⟨S8192x8192, .f32⟩
  | 68 => ⟨S_, .f32⟩
  | 69 => ⟨S8192x8192, .f32⟩
  | 70 => ⟨S8192x8192, .f32⟩
  | 71 => ⟨S8192x8192, .f32⟩
  | 72 => ⟨S8192x8192, .f32⟩
  | 73 => ⟨S_, .f32⟩
  | 74 => ⟨S_, .f32⟩
  | 75 => ⟨S_, .i32⟩
  | 76 => ⟨S100000, .i32⟩
  | 77 => ⟨S_, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S_, .i32⟩
  | 90 => ⟨S8192, .i32⟩
  | 91 => ⟨S100000, .i32⟩
  | 92 => ⟨S_, .i32⟩
  | 93 => ⟨S100000, .i32⟩
  | 94 => ⟨S100000, .i1⟩
  | 95 => ⟨S100000, .i32⟩
  | 96 => ⟨S_, .i32⟩
  | 97 => ⟨S_, .i32⟩
  | 98 => ⟨S_, .f32⟩
  | 99 => ⟨S_, .i32⟩
  | 100 => ⟨S100000, .i32⟩
  | 101 => ⟨S_, .i32⟩
  | 102 => ⟨S_, .i32⟩
  | 103 => ⟨S8192, .i32⟩
  | 104 => ⟨S8192, .i32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S_, .i32⟩
  | 114 => ⟨S8192, .i32⟩
  | 115 => ⟨S100000, .i32⟩
  | 116 => ⟨S_, .i32⟩
  | 117 => ⟨S100000, .i32⟩
  | 118 => ⟨S100000, .i1⟩
  | 119 => ⟨S100000, .i32⟩
  | 120 => ⟨S_, .i32⟩
  | 121 => ⟨S_, .i32⟩
  | 122 => ⟨S_, .f32⟩
  | 123 => ⟨S_, .f32⟩
  | 124 => ⟨S_, .f32⟩
  | 125 => ⟨S_, .f32⟩
  | 126 => ⟨S_, .f32⟩
  | 127 => ⟨S1, .f32⟩
  | _ => ⟨S8192, .i32⟩

abbrev hbmTy0_1 (i : Nat) : BufTy := match i % 128 with
  | 0 => ⟨S1, .f32⟩
  | 1 => ⟨S2, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_c_13 : Ref sig .tc := ⟨.hbm, 77, rfl⟩
abbrev main_call2_v0 : Ref sig .tc := ⟨.hbm, 78, rfl⟩
abbrev main_call2_v1 : Ref sig .tc := ⟨.hbm, 79, rfl⟩
abbrev main_v49 : Ref sig .tc := ⟨.hbm, 80, rfl⟩
abbrev main_c_14 : Ref sig .tc := ⟨.hbm, 81, rfl⟩
abbrev main_v50 : Ref sig .tc := ⟨.hbm, 82, rfl⟩
abbrev main_v51 : Ref sig .tc := ⟨.hbm, 83, rfl⟩
abbrev main_c_15 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_16 : Ref sig .tc := ⟨.hbm, 89, rfl⟩
abbrev main_v56 : Ref sig .tc := ⟨.hbm, 90, rfl⟩
abbrev main_v57 : Ref sig .tc := ⟨.hbm, 91, rfl⟩
abbrev main_c_17 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_18 : Ref sig .tc := ⟨.hbm, 96, rfl⟩
abbrev main_v61 : Ref sig .tc := ⟨.hbm, 97, rfl⟩
abbrev main_v62 : Ref sig .tc := ⟨.hbm, 98, rfl⟩
abbrev main_c_19 : Ref sig .tc := ⟨.hbm, 99, rfl⟩
abbrev main_v63 : Ref sig .tc := ⟨.hbm, 100, rfl⟩
abbrev main_c_20 : Ref sig .tc := ⟨.hbm, 101, rfl⟩
abbrev main_call3_v0 : Ref sig .tc := ⟨.hbm, 102, rfl⟩
abbrev main_call3_v1 : Ref sig .tc := ⟨.hbm, 103, rfl⟩
abbrev main_v64 : Ref sig .tc := ⟨.hbm, 104, rfl⟩
abbrev main_c_21 : Ref sig .tc := ⟨.hbm, 105, rfl⟩
abbrev main_v65 : Ref sig .tc := ⟨.hbm, 106, rfl⟩
abbrev main_v66 : Ref sig .tc := ⟨.hbm, 107, rfl⟩
abbrev main_c_22 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_23 : Ref sig .tc := ⟨.hbm, 113, rfl⟩
abbrev main_v71 : Ref sig .tc := ⟨.hbm, 114, rfl⟩
abbrev main_v72 : Ref sig .tc := ⟨.hbm, 115, rfl⟩
abbrev main_c_24 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_25 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  reducesTo_S8192_S_d0 : S8192.ReducesTo [0] S_
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  bcast_S_S100000 : S_.BroadcastsInDim S100000 (![] : Fin 0 → Fin S100000.rank)
  natLt_1_32 : 1 < 32
  reducesTo_S100000_S_d0 : S100000.ReducesTo [0] S_
  bcast_S_S1 : S_.BroadcastsInDim S1 (![] : Fin 0 → Fin S1.rank)
  concatenates_S1_S1_S2_d0 : Shape.Concatenates [S1, S1] S2 0
  gather_S100000x64_S8192x1_S8192x64_1_0_n_n_0_1_164_wf : GatherDims.WF S100000x64 S8192x1 S8192x64 [1] [0] [] [0] [] 1 ![1, 64]
  dot_S8192x64_S64x8192_S8192x8192_1_0_0_1_n_n_wf : DotDims.WF S8192x64 S64x8192 S8192x8192 [1] [0] [0] [1] [] []
  scatter_S100000_S8192x1_S8192_n_0_0_1_wf : ScatterDims.WF S100000 S8192x1 S8192 [] [0] [0] 1

variable [Facts₀]

def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def scatter_S100000_S8192x1_S8192_n_0_0_1 : ScatterDims S100000 S8192x1 S8192 where
  updateWindowDims := []
  insertedWindowDims := [0]
  scatterDimsToOperandDims := [0]
  indexVectorDim := 1
  wf := scatter_S100000_S8192x1_S8192_n_0_0_1_wf

class Facts : Prop extends Facts₀ where

variable [Facts]
-- ==== Proof.K.Up.lean ====
/- REGION 0 of the frame: the first TensorCore call, whose kernel loads its two input windows whole,
   computes one block from them and stores it whole into its output window. Generic in the float
   instance. At a parameter V (the TensorCore's buffer contents when the region is entered): each
   window's block at a point, what the body leaves in the output window's buffer, the body's triple,
   the pipeline's proof data and its body obligation. -/
import proofs.«134188_j81071802679459_2_alg».proof.Proof.Gen.Kernel.Launch
import proofs.«134188_j81071802679459_2_alg».proof.Proof.Gen.Kernel.Skeleton
import proofs.«134188_j81071802679459_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rIn0 : Rect S1024x64 := Rect.unit (s := S1024x64) ![0, 0] S1024x64.size inb_S1024x64_S1024x64_0_0
abbrev rOut0 : Rect S1x8x128 := Rect.unit (s := S1x8x128) ![0, 0, 0] S1x8x128.size inb_S1x8x128_S1x8x128_0_0_0

/-! ## What the body leaves in the output window's buffer -/

/-- Window 2's staging buffer after the body, from the input windows' blocks: its one store as a piece. -/
def out0_2 (x0 x1 : Vec F S1024x64 .f32) : Vec F S1x8x128 .f32 :=
  View.canon [⟨rOut0, k0_pay1 (View.ld x0 rIn0) (View.ld x1 rIn0)⟩]

/-- The store tiles the buffer, so it covers it. -/
theorem cover0_2 (p0 : Vec F S1x8x128 .f32) (y : S1x8x128.Idx) :
    ∃ pc ∈ ([⟨rOut0, p0⟩] : List (View.Piece (Elt F) S1x8x128 .f32)), y ∈ pc.1.set :=
  View.cover_of_tiled [⟨rOut0, p0⟩] S1x8x128.size (by rfl) y

/-! ## The body's triple -/

set_option maxHeartbeats 1000000 in
/-- The kernel body on whole staging memrefs, the inputs' at read contents and the output's at anything,
    runs to the continuation holding the inputs' as they were and the output's at out0_2 of the inputs'. -/
theorem sound_kernel0 (c : Dev nD) (E : Set ℕ) (i : grid0.Coords)
    (arg0 : Memref sig .tc .vmem S1024x64 .f32) (harg0 : arg0.IsWhole)
    (arg1 : Memref sig .tc .vmem S1024x64 .f32) (harg1 : arg1.IsWhole)
    (arg2 : Memref sig .tc .vmem S1x8x128 .f32) (harg2 : arg2.IsWhole)
    (x0 x1 : Vec F S1024x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__up_kernel i arg0 harg0 arg1 harg1 arg2 harg2) K := by
  simp only [cc0__up_kernel_eq_skeleton]; unfold cc0__up_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t
    each input's buffer at its block and the output's at out0_2 of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the
    invariant and the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Cross.lean ====
/-
  Region 1 of the frame: the all-pairs kernel on its 8 × 8 grid.

  At point (i, j) the body adds, into an accumulator of 8 × 128 partial sums that it keeps between points, the row sums
  of the terms of row block i of the first table against row block j of the second; it clears the accumulator first
  when j = 0, and when j = 7 it copies the accumulator into the output block of row block i. So the accumulator after
  point n is a recursion over the points of a run of eight (`acc1`), the output block's buffer is stored only at the
  last point of a run and is handed back untouched at the other points, and the invariant between points is the
  accumulator at `acc1` of the point before (anything before the very first point, where the body clears it before
  reading it). Every load and store of the body is of a whole buffer, so each buffer's contents after the body are one
  payload of the skeleton at the contents read (`zero1`, `step1`, `fin1`).
-/
import proofs.«134188_j81071802679459_2_alg».proof.Proof.Gen.Kernel.Launch
import proofs.«134188_j81071802679459_2_alg».proof.Proof.Gen.Kernel.Skeleton
import proofs.«134188_j81071802679459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the body, in closed form over the grid -/

/-- The condition of the first conditional of the body (the accumulator is reset where it holds), from the grid coordinates. -/
abbrev cond1_0 (i : grid1.Coords) : Prop := (Scalar.cmpi .ne (Scalar.extui (Scalar.cmpi .eq (BitVec.ofNat 32 (i 1).val) 0#32)) 0#32) = 1#1
/-- It holds at the points whose second coordinate is 0. -/
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the second conditional (the output block is stored where it holds). -/
abbrev cond1_1 (i : grid1.Coords) : Prop := k1_cond2 i = 1#1
/-- It holds at the points whose second coordinate is 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## The body's accesses: every load and store is of a whole buffer -/

abbrev rA : Rect S1024x64 := Rect.unit (s := S1024x64) ![0, 0] S1024x64.size inb_S1024x64_S1024x64_0_0
abbrev rS : Rect S8x128 := Rect.unit (s := S8x128) ![0, 0] S8x128.size inb_S8x128_S8x128_0_0
abbrev rO : Rect S1x8x128 := Rect.unit (s := S1x8x128) ![0, 0, 0] S1x8x128.size inb_S1x8x128_S1x8x128_0_0_0

/-- What the reset leaves in the accumulator: one whole-buffer store of zeros. -/
def zero1 : Vec F S8x128 .f32 := View.canon [⟨rS, k1_pay2 (F := F)⟩]
/-- What one accumulation leaves in the accumulator, from the two input blocks and what it held. -/
def step1 (x0 x1 : Vec F S1024x64 .f32) (prev : Vec F S8x128 .f32) : Vec F S8x128 .f32 :=
  View.canon [⟨rS, k1_pay3 (View.ld x0 rA) (View.ld x1 rA) (View.ld prev rS)⟩]
/-- What the closing store leaves in the output block's buffer, from what the accumulator holds. -/
def fin1 (s : Vec F S8x128 .f32) : Vec F S1x8x128 .f32 := View.canon [⟨rO, k1_pay1 (View.ld s rS)⟩]

theorem offA : (![0, 0] : Fin S1024x64.rank → ℕ) = fun _ => 0 := by funext a; fin_cases a <;> rfl
theorem offS : (![0, 0] : Fin S8x128.rank → ℕ) = fun _ => 0 := by funext a; fin_cases a <;> rfl
theorem offO : (![0, 0, 0] : Fin S1x8x128.rank → ℕ) = fun _ => 0 := by funext a; fin_cases a <;> rfl

/-- A whole-buffer store covers the buffer. -/
theorem coverS (p : Vec F S8x128 .f32) (L : List (View.Piece (Elt F) S8x128 .f32)) (y : S8x128.Idx) :
    ∃ pc ∈ ((⟨rS, p⟩ : View.Piece (Elt F) S8x128 .f32) :: L), y ∈ pc.1.set :=
  ⟨_, List.mem_cons_self, View.mem_set_unit_zero offS inb_S8x128_S8x128_0_0 y⟩
theorem coverO (p : Vec F S1x8x128 .f32) (L : List (View.Piece (Elt F) S1x8x128 .f32)) (y : S1x8x128.Idx) :
    ∃ pc ∈ ((⟨rO, p⟩ : View.Piece (Elt F) S1x8x128 .f32) :: L), y ∈ pc.1.set :=
  ⟨_, List.mem_cons_self, View.mem_set_unit_zero offO inb_S1x8x128_S1x8x128_0_0_0 y⟩

/-- Read through the whole buffer, the reset leaves the zeros, -/
theorem zero1_eq : zero1 (F := F) = k1_pay2 (F := F) := by
  unfold zero1; exact View.canon_unit_zero offS _ _
/-- an accumulation leaves its payload at the blocks and the previous contents, -/
theorem step1_eq (x0 x1 : Vec F S1024x64 .f32) (prev : Vec F S8x128 .f32) : step1 x0 x1 prev = k1_pay3 x0 x1 prev := by
  unfold step1
  rw [View.canon_unit_zero offS, View.ld_unit_zero offA, View.ld_unit_zero offA, View.ld_unit_zero offS]
/-- and the closing store its payload at the accumulator's contents. -/
theorem fin1_eq (s : Vec F S8x128 .f32) : fin1 s = k1_pay1 s := by
  unfold fin1
  rw [View.canon_unit_zero offO, View.ld_unit_zero offS]

/-- A load of a whole buffer reads its contents. -/
theorem readA_whole {sg : RefSig} {κ : Kind} {sp : Space} (v : View sg κ sp S1024x64 .f32) (f : v.ty.Contents (Elt F)) :
    v.readAt (Elt F) rA.toLoadRect f = v.read (Elt F) f := View.ld_unit_zero offA _ _
theorem readS_whole {sg : RefSig} {κ : Kind} {sp : Space} (v : View sg κ sp S8x128 .f32) (f : v.ty.Contents (Elt F)) :
    v.readAt (Elt F) rS.toLoadRect f = v.read (Elt F) f := View.ld_unit_zero offS _ _

/-- Seven conjuncts and one more, the seventh moved out of the nest. -/
theorem sep_reassoc7 {M : Type} [URA M] (A1 A2 A3 A4 A5 A6 A7 G : sProp M) :
    iprop((A1 ∗ A2 ∗ A3 ∗ A4 ∗ A5 ∗ A6 ∗ A7) ∗ G) = iprop(((A1 ∗ A2 ∗ A3 ∗ A4 ∗ A5 ∗ A6) ∗ A7) ∗ G) := by
  have h₁ : iprop((A1 ∗ A2 ∗ A3 ∗ A4 ∗ A5 ∗ A6 ∗ A7) ∗ G) ⊢ iprop(((A1 ∗ A2 ∗ A3 ∗ A4 ∗ A5 ∗ A6) ∗ A7) ∗ G) := by
    iintro ⟨⟨H1, H2, H3, H4, H5, H6, H7⟩, Hg⟩
    isplitl [H1 H2 H3 H4 H5 H6 H7]
    · isplitl [H1 H2 H3 H4 H5 H6]
      · isplitl [H1]; · iexact H1
        isplitl [H2]; · iexact H2
        isplitl [H3]; · iexact H3
        isplitl [H4]; · iexact H4
        isplitl [H5]; · iexact H5
        iexact H6
      iexact H7
    iexact Hg
  have h₂ : iprop(((A1 ∗ A2 ∗ A3 ∗ A4 ∗ A5 ∗ A6) ∗ A7) ∗ G) ⊢ iprop((A1 ∗ A2 ∗ A3 ∗ A4 ∗ A5 ∗ A6 ∗ A7) ∗ G) := by
    iintro ⟨⟨⟨H1, H2, H3, H4, H5, H6⟩, H7⟩, Hg⟩
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    iexact Hg
  exact BI.equiv_iff.mp ⟨h₁, h₂⟩

set_option maxHeartbeats 1000000 in
theorem sound_kernel1_B (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1x8x128 .f32) (harg4 : arg4.IsWhole) (arg5 : Memref sig .tc .vmem S8x128 .f32) (harg5 : arg5.IsWhole)
    (hc0 : ¬cond1_0 i) (hc1 : ¬cond1_1 i)
    (x0 : Vec F S1024x64 .f32) (x1 : Vec F S1024x64 .f32) (xo : Vec F S1x8x128 .f32) (xs : Vec F S8x128 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (step1 x0 x1 xs)) -∗ K ⟨⟩))
      ⊢ wp frame (wpE (defs₀ (F := F)) Variants.none c none) E (cc1__cross_kernel i arg2 harg2 arg3 harg3 arg4 harg4 arg5 harg5) K := by
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_unfold [cc1__cross_kernel, k1_part1]
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  unfold step1
  exact View.read_writes_eq_canon _ _ _ (coverS _ _)

set_option maxHeartbeats 1000000 in
theorem sound_kernel1_A (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1x8x128 .f32) (harg4 : arg4.IsWhole) (arg5 : Memref sig .tc .vmem S8x128 .f32) (harg5 : arg5.IsWhole)
    (hc0 : cond1_0 i) (hc1 : ¬cond1_1 i)
    (x0 : Vec F S1024x64 .f32) (x1 : Vec F S1024x64 .f32) (xo : Vec F S1x8x128 .f32) (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
            ∗ owns (c : Thread nD τ) arg5 fullShare (step1 x0 x1 (zero1 (F := F)))) -∗ K ⟨⟩))
      ⊢ wp frame (wpE (defs₀ (F := F)) Variants.none c none) E (cc1__cross_kernel i arg2 harg2 arg3 harg3 arg4 harg4 arg5 harg5) K := by
  unfold owns
  iintro ⟨⟨%f0, %hf0, H0⟩, ⟨%f1, %hf1, H1⟩, ⟨%f2, %hf2, H2⟩, ⟨%ds, %fs, -, HS⟩, Hk⟩
  subst hf0; subst hf1; subst hf2
  sl_unfold [cc1__cross_kernel, k1_part1]
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (coverS _ _), View.canon_cons_unit_zero offS, step1_eq, zero1_eq]
  sl_unfold_run_names
  rw [View.readCov_unit_zero _ offS, readA_whole, readA_whole]

set_option maxHeartbeats 1000000 in
theorem sound_kernel1_C (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1x8x128 .f32) (harg4 : arg4.IsWhole) (arg5 : Memref sig .tc .vmem S8x128 .f32) (harg5 : arg5.IsWhole)
    (hc0 : ¬cond1_0 i) (hc1 : cond1_1 i)
    (x0 : Vec F S1024x64 .f32) (x1 : Vec F S1024x64 .f32) (xs : Vec F S8x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (fin1 (step1 x0 x1 xs))
            ∗ owns (c : Thread nD τ) arg5 fullShare (step1 x0 x1 xs)) -∗ K ⟨⟩))
      ⊢ wp frame (wpE (defs₀ (F := F)) Variants.none c none) E (cc1__cross_kernel i arg2 harg2 arg3 harg3 arg4 harg4 arg5 harg5) K := by
  unfold owns
  iintro ⟨⟨%f0, %hf0, H0⟩, ⟨%f1, %hf1, H1⟩, ⟨%d2, %f2, -, H2⟩, ⟨%fs, %hfs, HS⟩, Hk⟩
  subst hf0; subst hf1; subst hfs
  sl_unfold [cc1__cross_kernel, k1_part1]
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (coverO _ _), View.canon_unit_zero offO, fin1_eq, step1_eq]
    sl_unfold_run_names
    rw [View.readCov_unit_zero _ offS, readA_whole, readA_whole, readS_whole]
  iexists _; isplitr
  swap; · iexact HS
  ipureintro
  unfold step1
  exact View.read_writes_eq_canon _ _ _ (coverS _ _)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator holds after each point -/

/-- What the accumulator holds after the body at position `n`: one accumulation of the point's two input blocks over the
    reset contents at the first point of a run of eight, over what the point before left otherwise. -/
def acc1 (c : Dev nD) : (n : ℕ) → n < cfg1.N → Vec F S8x128 .f32
  | 0, h => step1 (iblk1 V c 0 ⟨0, h⟩) (iblk1 V c 1 ⟨0, h⟩) (zero1 (F := F))
  | n + 1, h => step1 (iblk1 V c 0 ⟨n + 1, h⟩) (iblk1 V c 1 ⟨n + 1, h⟩)
      (if (n + 1) % 8 = 0 then zero1 (F := F) else acc1 c n (Nat.lt_of_succ_lt h))

/-- At the first point of a run the accumulation is over the reset contents. -/
theorem acc1_first (c : Dev nD) (n : ℕ) (h : n < cfg1.N) (h0 : n % 8 = 0) :
    acc1 V c n h = step1 (iblk1 V c 0 ⟨n, h⟩) (iblk1 V c 1 ⟨n, h⟩) (zero1 (F := F)) := by
  cases n with
  | zero => rfl
  | succ n => rw [acc1, if_pos h0]

/-- At any other point it is over what the point before left. -/
theorem acc1_next (c : Dev nD) (n : ℕ) (h : n < cfg1.N) (h0 : n % 8 ≠ 0) :
    acc1 V c n h = step1 (iblk1 V c 0 ⟨n, h⟩) (iblk1 V c 1 ⟨n, h⟩) (acc1 V c (n - 1) (Nat.lt_of_le_of_lt (Nat.sub_le _ _) h)) := by
  cases n with
  | zero => exact absurd (Nat.zero_mod _) h0
  | succ n => rw [acc1, if_neg h0]; rfl

/-! ## The region invariant -/

/-- The scoped buffers of the core that are neither a staging buffer of this region nor its accumulator, each at some
    contents: the body never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The accumulator as a memref: a whole scoped buffer of the kernel's own. -/
abbrev scM1 : Memref sig .tc .vmem S8x128 .f32 := Memref.whole cc1_scratch0

/-- What the launch hands the region, with the accumulator as a memref owned at some contents. -/
theorem PhiA1_eq (c : Dev nD) :
    (Pipeline.ΦA spec1 c : sProp 𝕄)
      = iprop(iprop(rest1 (F := F) c ∗ (∃ d, owns (c : Thread nD τ) scM1 fullShare d)) ∗ (∃ r, prngReg c r)) := by
  unfold Pipeline.ΦA rest1; rw [scopedRest1_eq]; simp only [scM1, owns_whole]
  exact sep_reassoc7 _ _ _ _ _ _ _ _

/-- The region invariant before position `n`: before the first point what the launch hands over (the accumulator at
    anything); afterwards the accumulator at what the point before left in it, the other scoped buffers at anything
    and the generator register at some state. -/
def PhiS1 (c : Dev nD) : (n : ℕ) → n ≤ cfg1.N → sProp 𝕄
  | 0, _ => Pipeline.ΦA spec1 c
  | n + 1, hn => iprop(iprop(rest1 (F := F) c ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1 fullShare (acc1 V c (n - 1) (Nat.lt_of_lt_of_le (Nat.sub_lt (Nat.pos_of_ne_zero hz) Nat.one_pos) h))) ∗ (∃ r, prngReg c r)) := by
  cases n with
  | zero => exact absurd rfl hz
  | succ n => rfl

/-! ## The pipeline's proof data -/

/-- The proof data of the pipeline on core `c`: the arrays as the region finds them; after the body at point `t` each
    input's buffer at its block and the output's at the closing store of the accumulator (consulted only where the
    block is stored: the last point of each run of eight); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => fin1 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = fin1 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Region

section Body
variable (V : (c : Dev nD) → (b : Ref sig .tc) → Buf (Elt F) ((c : Thread nD τ).loc b))

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Where the closing store is not taken the output window is idle, and its block is not written back; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- where it is taken the window is live. -/
theorem liveAt1_2 : ∀ t : Fin cfg1.N, cond1_1 (grid1.coords t) → cfg1.idle 2 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the closed forms of the two conditions say which of
    the three cases the point is in; the invariant hands the body the accumulator at what the point before left (at
    anything at the very first point, where the body resets it before reading) and takes it back at this point's
    contents; where the closing store is not taken the output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_first V c t.val t.isLt h0]
    by_cases hz : t.val = 0
    · rw [PhiS1_castSucc V c t, PhiS1_zero V c _ _ hz, PhiA1_eq]
      iintro ⟨⟨⟨HR, HS⟩, Hg⟩, Ho, ⟨%d0, H0⟩, ⟨%d1, H1⟩, ⟨%d2, H2⟩⟩
      iapply (sound_kernel1_A c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HR, HS⟩, Hg⟩, Ho, ⟨%d0, H0⟩, ⟨%d1, H1⟩, ⟨%d2, H2⟩⟩
      iapply (sound_kernel1_A c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2
  · have hz : t.val ≠ 0 := fun e => h0 (by rw [e])
    have hc0 : ¬cond1_0 (grid1.coords t) := fun h => h0 ((hcond1_0 t).mp h)
    rw [acc1_next V c t.val t.isLt h0]
    rw [PhiS1_castSucc V c t, PhiS1_pos V c _ _ hz]
    by_cases h1 : t.val % 8 = 7
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_next V c t.val t.isLt h0]
      iintro ⟨⟨⟨HR, HS⟩, Hg⟩, Ho, ⟨%d0, H0⟩, ⟨%d1, H1⟩, ⟨%d2, H2⟩⟩
      iapply (sound_kernel1_C c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HR, HS⟩, Hg⟩, Ho, ⟨%d0, H0⟩, ⟨%d1, H1⟩, ⟨%d2, H2⟩⟩
      iapply (sound_kernel1_B c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS⟩, Hg⟩
  isplitl [HR HS]
  · isplitl [HR]; · iexact HR
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Body

end Cert.Kernel.Hand
end
-- ==== Proof.K.Run.lean ====
/-
  The run of the whole program on the TensorCores, at any float instance.

  @main is a stretch of host operations (the two row gathers), the first kernel region (one output block of
  per-row terms per grid point), the second region (an accumulator carried over eight column blocks, written out
  at the last), and five more stretches of host operations. Between two items every unscoped buffer of a core is
  held at known contents: the launch memory folded through the host operations, with a region's output array replaced
  by what its write-backs leave. The arguments are written by no item, so they end as launched; the result buffer
  ends at the last fold.
-/
import proofs.«134188_j81071802679459_2_alg».proof.Proof.Gen.Kernel.Launch
import proofs.«134188_j81071802679459_2_alg».proof.Proof.Gen.Kernel.Skeleton
import proofs.«134188_j81071802679459_2_alg».proof.Proof.Gen.Kernel.Points
import proofs.«134188_j81071802679459_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134188_j81071802679459_2_alg».proof.Proof.K.Up
import proofs.«134188_j81071802679459_2_alg».proof.Proof.K.Cross

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core c's buffers at launch. -/
abbrev W0 : Dev nD → Valuation τ sig (Elt F) := fun c b => (s₀ m ρ).mem ((c : Dev nD), b)
/-- After the first stretch of host operations (the two gathers): what the first region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its output array at what its write-backs leave, everything else as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region, entered from W2 with no host operation between. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After each of the five stretches of host operations that follow the regions. -/
abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)
abbrev W7 : Dev nD → Valuation τ sig (Elt F) := fun c => StableHlo.after hostOps2_3 (W6 m ρ c)
abbrev W8 : Dev nD → Valuation τ sig (Elt F) := fun c => StableHlo.after hostOps2_4 (W7 m ρ c)

/-! # The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! # The regions as segments -/

set_option backward.isDefEq.respectTransparency.types false in
/-- The first region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from W2, left at W3; its carried scratch enters and leaves through
    the region's own invariant. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) spec1 c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ emp
        ∗ Pipeline.scopedRest (Ix := Unit) (Name := ℕ) (U := UR sig nD τ) (Lvl := ℕ) spec1 c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    unscoped buffer of every core ends at the last boundary's contents W8. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-! # What the run leaves: the arguments as launched, the result at the last boundary's contents -/

/-- A buffer no host operation writes and no region's window names reaches the end as launched. -/
theorem W8_of_kept (c : Dev nD) (r : Ref sig .tc) (h0 : r ∉ hostOps0_W) (hA0 : ∀ w, Pipeline.arrRef spec0 w ≠ r)
    (hA1 : ∀ w, Pipeline.arrRef spec1 w ≠ r) (h2 : r ∉ hostOps2_W) (h21 : r ∉ hostOps2_1_W) (h22 : r ∉ hostOps2_2_W)
    (h23 : r ∉ hostOps2_3_W) (h24 : r ∉ hostOps2_4_W) : W8 m ρ c r = m ((c : Thread nD τ).loc r) :=
  (StableHlo.after_of_writes_sub hostOps2_4 _ hostOps2_4_writes h24).trans <|
  (StableHlo.after_of_writes_sub hostOps2_3 _ hostOps2_3_writes h23).trans <|
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2).trans <|
  (W3_of_ne m ρ c r hA1).trans <| (W2_of_ne m ρ c r hA0).trans <|
  (StableHlo.after_of_writes_sub hostOps0 _ hostOps0_writes h0).trans rfl

theorem W8_main_arg0 (c : Dev nD) : W8 m ρ c main_arg0 = m ((c : Thread nD τ).loc main_arg0) :=
  W8_of_kept m ρ c main_arg0 (by decide) (by decide) (by decide) (by decide) (by decide) (by decide) (by decide) (by decide)
theorem W8_main_arg1 (c : Dev nD) : W8 m ρ c main_arg1 = m ((c : Thread nD τ).loc main_arg1) :=
  W8_of_kept m ρ c main_arg1 (by decide) (by decide) (by decide) (by decide) (by decide) (by decide) (by decide) (by decide)
theorem W8_main_arg2 (c : Dev nD) : W8 m ρ c main_arg2 = m ((c : Thread nD τ).loc main_arg2) :=
  W8_of_kept m ρ c main_arg2 (by decide) (by decide) (by decide) (by decide) (by decide) (by decide) (by decide) (by decide)
theorem W8_main_arg3 (c : Dev nD) : W8 m ρ c main_arg3 = m ((c : Thread nD τ).loc main_arg3) :=
  W8_of_kept m ρ c main_arg3 (by decide) (by decide) (by decide) (by decide) (by decide) (by decide) (by decide) (by decide)
theorem W8_main_arg4 (c : Dev nD) : W8 m ρ c main_arg4 = m ((c : Thread nD τ).loc main_arg4) :=
  W8_of_kept m ρ c main_arg4 (by decide) (by decide) (by decide) (by decide) (by decide) (by decide) (by decide) (by decide)

/-- The run with the result buffer named: it ends at the last boundary's contents, the arguments as launched. -/
theorem run_value : θ_run defs (onTc (τ := τ) (main (F := F))) ⟨m, fun _ => 0, ρ⟩ (fun r => ∀ c : Dev nD,
      r.2.mem ((c.tc : Thread nD τ).loc main_v55) = W8 m ρ c main_v55
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v55 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.Kernel.Hand

end
-- ==== Proof.KI.Up.lean ====
/- REGION 0 of the frame: the first TensorCore call, whose kernel loads its two input windows whole,
   computes one block from them and stores it whole into its output window. Generic in the float
   instance. At a parameter V (the TensorCore's buffer contents when the region is entered): each
   window's block at a point, what the body leaves in the output window's buffer, the body's triple,
   the pipeline's proof data and its body obligation. -/
import proofs.«134188_j81071802679459_2_alg».proof.Proof.Gen.KernelIdeal.Launch
import proofs.«134188_j81071802679459_2_alg».proof.Proof.Gen.KernelIdeal.Skeleton
import proofs.«134188_j81071802679459_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rIn0 : Rect S1024x64 := Rect.unit (s := S1024x64) ![0, 0] S1024x64.size inb_S1024x64_S1024x64_0_0
abbrev rOut0 : Rect S1x8x128 := Rect.unit (s := S1x8x128) ![0, 0, 0] S1x8x128.size inb_S1x8x128_S1x8x128_0_0_0

/-! ## What the body leaves in the output window's buffer -/

/-- Window 2's staging buffer after the body, from the input windows' blocks: its one store as a piece. -/
def out0_2 (x0 x1 : Vec F S1024x64 .f32) : Vec F S1x8x128 .f32 :=
  View.canon [⟨rOut0, k0_pay1 (View.ld x0 rIn0) (View.ld x1 rIn0)⟩]

/-- The store tiles the buffer, so it covers it. -/
theorem cover0_2 (p0 : Vec F S1x8x128 .f32) (y : S1x8x128.Idx) :
    ∃ pc ∈ ([⟨rOut0, p0⟩] : List (View.Piece (Elt F) S1x8x128 .f32)), y ∈ pc.1.set :=
  View.cover_of_tiled [⟨rOut0, p0⟩] S1x8x128.size (by rfl) y

/-! ## The body's triple -/

set_option maxHeartbeats 1000000 in
/-- The kernel body on whole staging memrefs, the inputs' at read contents and the output's at anything,
    runs to the continuation holding the inputs' as they were and the output's at out0_2 of the inputs'. -/
theorem sound_kernel0 (c : Dev nD) (E : Set ℕ) (i : grid0.Coords)
    (arg0 : Memref sig .tc .vmem S1024x64 .f32) (harg0 : arg0.IsWhole)
    (arg1 : Memref sig .tc .vmem S1024x64 .f32) (harg1 : arg1.IsWhole)
    (arg2 : Memref sig .tc .vmem S1x8x128 .f32) (harg2 : arg2.IsWhole)
    (x0 x1 : Vec F S1024x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__up_kernel i arg0 harg0 arg1 harg1 arg2 harg2) K := by
  simp only [cc0__up_kernel_eq_skeleton]; unfold cc0__up_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t
    each input's buffer at its block and the output's at out0_2 of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the
    invariant and the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Cross.lean ====
/-
  Region 1 of the frame: the all-pairs kernel on its 8 × 8 grid.

  At point (i, j) the body adds, into an accumulator of 8 × 128 partial sums that it keeps between points, the row sums
  of the terms of row block i of the first table against row block j of the second; it clears the accumulator first
  when j = 0, and when j = 7 it copies the accumulator into the output block of row block i. So the accumulator after
  point n is a recursion over the points of a run of eight (`acc1`), the output block's buffer is stored only at the
  last point of a run and is handed back untouched at the other points, and the invariant between points is the
  accumulator at `acc1` of the point before (anything before the very first point, where the body clears it before
  reading it). Every load and store of the body is of a whole buffer, so each buffer's contents after the body are one
  payload of the skeleton at the contents read (`zero1`, `step1`, `fin1`).
-/
import proofs.«134188_j81071802679459_2_alg».proof.Proof.Gen.KernelIdeal.Launch
import proofs.«134188_j81071802679459_2_alg».proof.Proof.Gen.KernelIdeal.Skeleton
import proofs.«134188_j81071802679459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the body, in closed form over the grid -/

/-- The condition of the first conditional of the body (the accumulator is reset where it holds), from the grid coordinates. -/
abbrev cond1_0 (i : grid1.Coords) : Prop := (Scalar.cmpi .ne (Scalar.extui (Scalar.cmpi .eq (BitVec.ofNat 32 (i 1).val) 0#32)) 0#32) = 1#1
/-- It holds at the points whose second coordinate is 0. -/
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the second conditional (the output block is stored where it holds). -/
abbrev cond1_1 (i : grid1.Coords) : Prop := k1_cond2 i = 1#1
/-- It holds at the points whose second coordinate is 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## The body's accesses: every load and store is of a whole buffer -/

abbrev rA : Rect S1024x64 := Rect.unit (s := S1024x64) ![0, 0] S1024x64.size inb_S1024x64_S1024x64_0_0
abbrev rS : Rect S8x128 := Rect.unit (s := S8x128) ![0, 0] S8x128.size inb_S8x128_S8x128_0_0
abbrev rO : Rect S1x8x128 := Rect.unit (s := S1x8x128) ![0, 0, 0] S1x8x128.size inb_S1x8x128_S1x8x128_0_0_0

/-- What the reset leaves in the accumulator: one whole-buffer store of zeros. -/
def zero1 : Vec F S8x128 .f32 := View.canon [⟨rS, k1_pay2 (F := F)⟩]
/-- What one accumulation leaves in the accumulator, from the two input blocks and what it held. -/
def step1 (x0 x1 : Vec F S1024x64 .f32) (prev : Vec F S8x128 .f32) : Vec F S8x128 .f32 :=
  View.canon [⟨rS, k1_pay3 (View.ld x0 rA) (View.ld x1 rA) (View.ld prev rS)⟩]
/-- What the closing store leaves in the output block's buffer, from what the accumulator holds. -/
def fin1 (s : Vec F S8x128 .f32) : Vec F S1x8x128 .f32 := View.canon [⟨rO, k1_pay1 (View.ld s rS)⟩]

theorem offA : (![0, 0] : Fin S1024x64.rank → ℕ) = fun _ => 0 := by funext a; fin_cases a <;> rfl
theorem offS : (![0, 0] : Fin S8x128.rank → ℕ) = fun _ => 0 := by funext a; fin_cases a <;> rfl
theorem offO : (![0, 0, 0] : Fin S1x8x128.rank → ℕ) = fun _ => 0 := by funext a; fin_cases a <;> rfl

/-- A whole-buffer store covers the buffer. -/
theorem coverS (p : Vec F S8x128 .f32) (L : List (View.Piece (Elt F) S8x128 .f32)) (y : S8x128.Idx) :
    ∃ pc ∈ ((⟨rS, p⟩ : View.Piece (Elt F) S8x128 .f32) :: L), y ∈ pc.1.set :=
  ⟨_, List.mem_cons_self, View.mem_set_unit_zero offS inb_S8x128_S8x128_0_0 y⟩
theorem coverO (p : Vec F S1x8x128 .f32) (L : List (View.Piece (Elt F) S1x8x128 .f32)) (y : S1x8x128.Idx) :
    ∃ pc ∈ ((⟨rO, p⟩ : View.Piece (Elt F) S1x8x128 .f32) :: L), y ∈ pc.1.set :=
  ⟨_, List.mem_cons_self, View.mem_set_unit_zero offO inb_S1x8x128_S1x8x128_0_0_0 y⟩

/-- Read through the whole buffer, the reset leaves the zeros, -/
theorem zero1_eq : zero1 (F := F) = k1_pay2 (F := F) := by
  unfold zero1; exact View.canon_unit_zero offS _ _
/-- an accumulation leaves its payload at the blocks and the previous contents, -/
theorem step1_eq (x0 x1 : Vec F S1024x64 .f32) (prev : Vec F S8x128 .f32) : step1 x0 x1 prev = k1_pay3 x0 x1 prev := by
  unfold step1
  rw [View.canon_unit_zero offS, View.ld_unit_zero offA, View.ld_unit_zero offA, View.ld_unit_zero offS]
/-- and the closing store its payload at the accumulator's contents. -/
theorem fin1_eq (s : Vec F S8x128 .f32) : fin1 s = k1_pay1 s := by
  unfold fin1
  rw [View.canon_unit_zero offO, View.ld_unit_zero offS]

/-- A load of a whole buffer reads its contents. -/
theorem readA_whole {sg : RefSig} {κ : Kind} {sp : Space} (v : View sg κ sp S1024x64 .f32) (f : v.ty.Contents (Elt F)) :
    v.readAt (Elt F) rA.toLoadRect f = v.read (Elt F) f := View.ld_unit_zero offA _ _
theorem readS_whole {sg : RefSig} {κ : Kind} {sp : Space} (v : View sg κ sp S8x128 .f32) (f : v.ty.Contents (Elt F)) :
    v.readAt (Elt F) rS.toLoadRect f = v.read (Elt F) f := View.ld_unit_zero offS _ _

/-- Seven conjuncts and one more, the seventh moved out of the nest. -/
theorem sep_reassoc7 {M : Type} [URA M] (A1 A2 A3 A4 A5 A6 A7 G : sProp M) :
    iprop((A1 ∗ A2 ∗ A3 ∗ A4 ∗ A5 ∗ A6 ∗ A7) ∗ G) = iprop(((A1 ∗ A2 ∗ A3 ∗ A4 ∗ A5 ∗ A6) ∗ A7) ∗ G) := by
  have h₁ : iprop((A1 ∗ A2 ∗ A3 ∗ A4 ∗ A5 ∗ A6 ∗ A7) ∗ G) ⊢ iprop(((A1 ∗ A2 ∗ A3 ∗ A4 ∗ A5 ∗ A6) ∗ A7) ∗ G) := by
    iintro ⟨⟨H1, H2, H3, H4, H5, H6, H7⟩, Hg⟩
    isplitl [H1 H2 H3 H4 H5 H6 H7]
    · isplitl [H1 H2 H3 H4 H5 H6]
      · isplitl [H1]; · iexact H1
        isplitl [H2]; · iexact H2
        isplitl [H3]; · iexact H3
        isplitl [H4]; · iexact H4
        isplitl [H5]; · iexact H5
        iexact H6
      iexact H7
    iexact Hg
  have h₂ : iprop(((A1 ∗ A2 ∗ A3 ∗ A4 ∗ A5 ∗ A6) ∗ A7) ∗ G) ⊢ iprop((A1 ∗ A2 ∗ A3 ∗ A4 ∗ A5 ∗ A6 ∗ A7) ∗ G) := by
    iintro ⟨⟨⟨H1, H2, H3, H4, H5, H6⟩, H7⟩, Hg⟩
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    iexact Hg
  exact BI.equiv_iff.mp ⟨h₁, h₂⟩

set_option maxHeartbeats 1000000 in
theorem sound_kernel1_B (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1x8x128 .f32) (harg4 : arg4.IsWhole) (arg5 : Memref sig .tc .vmem S8x128 .f32) (harg5 : arg5.IsWhole)
    (hc0 : ¬cond1_0 i) (hc1 : ¬cond1_1 i)
    (x0 : Vec F S1024x64 .f32) (x1 : Vec F S1024x64 .f32) (xo : Vec F S1x8x128 .f32) (xs : Vec F S8x128 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (step1 x0 x1 xs)) -∗ K ⟨⟩))
      ⊢ wp frame (wpE (defs₀ (F := F)) Variants.none c none) E (cc1__cross_kernel i arg2 harg2 arg3 harg3 arg4 harg4 arg5 harg5) K := by
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_unfold [cc1__cross_kernel, k1_part1]
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  unfold step1
  exact View.read_writes_eq_canon _ _ _ (coverS _ _)

set_option maxHeartbeats 1000000 in
theorem sound_kernel1_A (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1x8x128 .f32) (harg4 : arg4.IsWhole) (arg5 : Memref sig .tc .vmem S8x128 .f32) (harg5 : arg5.IsWhole)
    (hc0 : cond1_0 i) (hc1 : ¬cond1_1 i)
    (x0 : Vec F S1024x64 .f32) (x1 : Vec F S1024x64 .f32) (xo : Vec F S1x8x128 .f32) (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
            ∗ owns (c : Thread nD τ) arg5 fullShare (step1 x0 x1 (zero1 (F := F)))) -∗ K ⟨⟩))
      ⊢ wp frame (wpE (defs₀ (F := F)) Variants.none c none) E (cc1__cross_kernel i arg2 harg2 arg3 harg3 arg4 harg4 arg5 harg5) K := by
  unfold owns
  iintro ⟨⟨%f0, %hf0, H0⟩, ⟨%f1, %hf1, H1⟩, ⟨%f2, %hf2, H2⟩, ⟨%ds, %fs, -, HS⟩, Hk⟩
  subst hf0; subst hf1; subst hf2
  sl_unfold [cc1__cross_kernel, k1_part1]
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (coverS _ _), View.canon_cons_unit_zero offS, step1_eq, zero1_eq]
  sl_unfold_run_names
  rw [View.readCov_unit_zero _ offS, readA_whole, readA_whole]

set_option maxHeartbeats 1000000 in
theorem sound_kernel1_C (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1x8x128 .f32) (harg4 : arg4.IsWhole) (arg5 : Memref sig .tc .vmem S8x128 .f32) (harg5 : arg5.IsWhole)
    (hc0 : ¬cond1_0 i) (hc1 : cond1_1 i)
    (x0 : Vec F S1024x64 .f32) (x1 : Vec F S1024x64 .f32) (xs : Vec F S8x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (fin1 (step1 x0 x1 xs))
            ∗ owns (c : Thread nD τ) arg5 fullShare (step1 x0 x1 xs)) -∗ K ⟨⟩))
      ⊢ wp frame (wpE (defs₀ (F := F)) Variants.none c none) E (cc1__cross_kernel i arg2 harg2 arg3 harg3 arg4 harg4 arg5 harg5) K := by
  unfold owns
  iintro ⟨⟨%f0, %hf0, H0⟩, ⟨%f1, %hf1, H1⟩, ⟨%d2, %f2, -, H2⟩, ⟨%fs, %hfs, HS⟩, Hk⟩
  subst hf0; subst hf1; subst hfs
  sl_unfold [cc1__cross_kernel, k1_part1]
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (coverO _ _), View.canon_unit_zero offO, fin1_eq, step1_eq]
    sl_unfold_run_names
    rw [View.readCov_unit_zero _ offS, readA_whole, readA_whole, readS_whole]
  iexists _; isplitr
  swap; · iexact HS
  ipureintro
  unfold step1
  exact View.read_writes_eq_canon _ _ _ (coverS _ _)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator holds after each point -/

/-- What the accumulator holds after the body at position `n`: one accumulation of the point's two input blocks over the
    reset contents at the first point of a run of eight, over what the point before left otherwise. -/
def acc1 (c : Dev nD) : (n : ℕ) → n < cfg1.N → Vec F S8x128 .f32
  | 0, h => step1 (iblk1 V c 0 ⟨0, h⟩) (iblk1 V c 1 ⟨0, h⟩) (zero1 (F := F))
  | n + 1, h => step1 (iblk1 V c 0 ⟨n + 1, h⟩) (iblk1 V c 1 ⟨n + 1, h⟩)
      (if (n + 1) % 8 = 0 then zero1 (F := F) else acc1 c n (Nat.lt_of_succ_lt h))

/-- At the first point of a run the accumulation is over the reset contents. -/
theorem acc1_first (c : Dev nD) (n : ℕ) (h : n < cfg1.N) (h0 : n % 8 = 0) :
    acc1 V c n h = step1 (iblk1 V c 0 ⟨n, h⟩) (iblk1 V c 1 ⟨n, h⟩) (zero1 (F := F)) := by
  cases n with
  | zero => rfl
  | succ n => rw [acc1, if_pos h0]

/-- At any other point it is over what the point before left. -/
theorem acc1_next (c : Dev nD) (n : ℕ) (h : n < cfg1.N) (h0 : n % 8 ≠ 0) :
    acc1 V c n h = step1 (iblk1 V c 0 ⟨n, h⟩) (iblk1 V c 1 ⟨n, h⟩) (acc1 V c (n - 1) (Nat.lt_of_le_of_lt (Nat.sub_le _ _) h)) := by
  cases n with
  | zero => exact absurd (Nat.zero_mod _) h0
  | succ n => rw [acc1, if_neg h0]; rfl

/-! ## The region invariant -/

/-- The scoped buffers of the core that are neither a staging buffer of this region nor its accumulator, each at some
    contents: the body never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The accumulator as a memref: a whole scoped buffer of the kernel's own. -/
abbrev scM1 : Memref sig .tc .vmem S8x128 .f32 := Memref.whole cc1_scratch0

/-- What the launch hands the region, with the accumulator as a memref owned at some contents. -/
theorem PhiA1_eq (c : Dev nD) :
    (Pipeline.ΦA spec1 c : sProp 𝕄)
      = iprop(iprop(rest1 (F := F) c ∗ (∃ d, owns (c : Thread nD τ) scM1 fullShare d)) ∗ (∃ r, prngReg c r)) := by
  unfold Pipeline.ΦA rest1; rw [scopedRest1_eq]; simp only [scM1, owns_whole]
  exact sep_reassoc7 _ _ _ _ _ _ _ _

/-- The region invariant before position `n`: before the first point what the launch hands over (the accumulator at
    anything); afterwards the accumulator at what the point before left in it, the other scoped buffers at anything
    and the generator register at some state. -/
def PhiS1 (c : Dev nD) : (n : ℕ) → n ≤ cfg1.N → sProp 𝕄
  | 0, _ => Pipeline.ΦA spec1 c
  | n + 1, hn => iprop(iprop(rest1 (F := F) c ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1 fullShare (acc1 V c (n - 1) (Nat.lt_of_lt_of_le (Nat.sub_lt (Nat.pos_of_ne_zero hz) Nat.one_pos) h))) ∗ (∃ r, prngReg c r)) := by
  cases n with
  | zero => exact absurd rfl hz
  | succ n => rfl

/-! ## The pipeline's proof data -/

/-- The proof data of the pipeline on core `c`: the arrays as the region finds them; after the body at point `t` each
    input's buffer at its block and the output's at the closing store of the accumulator (consulted only where the
    block is stored: the last point of each run of eight); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => fin1 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = fin1 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Region

section Body
variable (V : (c : Dev nD) → (b : Ref sig .tc) → Buf (Elt F) ((c : Thread nD τ).loc b))

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Where the closing store is not taken the output window is idle, and its block is not written back; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- where it is taken the window is live. -/
theorem liveAt1_2 : ∀ t : Fin cfg1.N, cond1_1 (grid1.coords t) → cfg1.idle 2 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the closed forms of the two conditions say which of
    the three cases the point is in; the invariant hands the body the accumulator at what the point before left (at
    anything at the very first point, where the body resets it before reading) and takes it back at this point's
    contents; where the closing store is not taken the output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_first V c t.val t.isLt h0]
    by_cases hz : t.val = 0
    · rw [PhiS1_castSucc V c t, PhiS1_zero V c _ _ hz, PhiA1_eq]
      iintro ⟨⟨⟨HR, HS⟩, Hg⟩, Ho, ⟨%d0, H0⟩, ⟨%d1, H1⟩, ⟨%d2, H2⟩⟩
      iapply (sound_kernel1_A c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HR, HS⟩, Hg⟩, Ho, ⟨%d0, H0⟩, ⟨%d1, H1⟩, ⟨%d2, H2⟩⟩
      iapply (sound_kernel1_A c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2
  · have hz : t.val ≠ 0 := fun e => h0 (by rw [e])
    have hc0 : ¬cond1_0 (grid1.coords t) := fun h => h0 ((hcond1_0 t).mp h)
    rw [acc1_next V c t.val t.isLt h0]
    rw [PhiS1_castSucc V c t, PhiS1_pos V c _ _ hz]
    by_cases h1 : t.val % 8 = 7
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_next V c t.val t.isLt h0]
      iintro ⟨⟨⟨HR, HS⟩, Hg⟩, Ho, ⟨%d0, H0⟩, ⟨%d1, H1⟩, ⟨%d2, H2⟩⟩
      iapply (sound_kernel1_C c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HR, HS⟩, Hg⟩, Ho, ⟨%d0, H0⟩, ⟨%d1, H1⟩, ⟨%d2, H2⟩⟩
      iapply (sound_kernel1_B c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HR HS Hg]
      · isplitl [HR HS]
        · isplitl [HR]; · iexact HR
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS⟩, Hg⟩
  isplitl [HR HS]
  · isplitl [HR]; · iexact HR
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Body

end Cert.KernelIdeal.Hand
end
-- ==== Proof.KI.Run.lean ====
/-
  The run of the whole program on the TensorCores, at any float instance.

  @main is a stretch of host operations (the two row gathers), the first kernel region (one output block of
  per-row terms per grid point), the second region (an accumulator carried over eight column blocks, written out
  at the last), and five more stretches of host operations. Between two items every unscoped buffer of a core is
  held at known contents: the launch memory folded through the host operations, with a region's output array replaced
  by what its write-backs leave. The arguments are written by no item, so they end as launched; the result buffer
  ends at the last fold.
-/
import proofs.«134188_j81071802679459_2_alg».proof.Proof.Gen.KernelIdeal.Launch
import proofs.«134188_j81071802679459_2_alg».proof.Proof.Gen.KernelIdeal.Skeleton
import proofs.«134188_j81071802679459_2_alg».proof.Proof.Gen.KernelIdeal.Points
import proofs.«134188_j81071802679459_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134188_j81071802679459_2_alg».proof.Proof.KI.Up
import proofs.«134188_j81071802679459_2_alg».proof.Proof.KI.Cross

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core c's buffers at launch. -/
abbrev W0 : Dev nD → Valuation τ sig (Elt F) := fun c b => (s₀ m ρ).mem ((c : Dev nD), b)
/-- After the first stretch of host operations (the two gathers): what the first region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its output array at what its write-backs leave, everything else as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region, entered from W2 with no host operation between. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After each of the five stretches of host operations that follow the regions. -/
abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)
abbrev W7 : Dev nD → Valuation τ sig (Elt F) := fun c => StableHlo.after hostOps2_3 (W6 m ρ c)
abbrev W8 : Dev nD → Valuation τ sig (Elt F) := fun c => StableHlo.after hostOps2_4 (W7 m ρ c)

/-! # The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! # The regions as segments -/

set_option backward.isDefEq.respectTransparency.types false in
/-- The first region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from W2, left at W3; its carried scratch enters and leaves through
    the region's own invariant. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) spec1 c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ emp
        ∗ Pipeline.scopedRest (Ix := Unit) (Name := ℕ) (U := UR sig nD τ) (Lvl := ℕ) spec1 c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    unscoped buffer of every core ends at the last boundary's contents W8. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-! # What the run leaves: the arguments as launched, the result at the last boundary's contents -/

/-- A buffer no host operation writes and no region's window names reaches the end as launched. -/
theorem W8_of_kept (c : Dev nD) (r : Ref sig .tc) (h0 : r ∉ hostOps0_W) (hA0 : ∀ w, Pipeline.arrRef spec0 w ≠ r)
    (hA1 : ∀ w, Pipeline.arrRef spec1 w ≠ r) (h2 : r ∉ hostOps2_W) (h21 : r ∉ hostOps2_1_W) (h22 : r ∉ hostOps2_2_W)
    (h23 : r ∉ hostOps2_3_W) (h24 : r ∉ hostOps2_4_W) : W8 m ρ c r = m ((c : Thread nD τ).loc r) :=
  (StableHlo.after_of_writes_sub hostOps2_4 _ hostOps2_4_writes h24).trans <|
  (StableHlo.after_of_writes_sub hostOps2_3 _ hostOps2_3_writes h23).trans <|
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2).trans <|
  (W3_of_ne m ρ c r hA1).trans <| (W2_of_ne m ρ c r hA0).trans <|
  (StableHlo.after_of_writes_sub hostOps0 _ hostOps0_writes h0).trans rfl

theorem W8_main_arg0 (c : Dev nD) : W8 m ρ c main_arg0 = m ((c : Thread nD τ).loc main_arg0) :=
  W8_of_kept m ρ c main_arg0 (by decide) (by decide) (by decide) (by decide) (by decide) (by decide) (by decide) (by decide)
theorem W8_main_arg1 (c : Dev nD) : W8 m ρ c main_arg1 = m ((c : Thread nD τ).loc main_arg1) :=
  W8_of_kept m ρ c main_arg1 (by decide) (by decide) (by decide) (by decide) (by decide) (by decide) (by decide) (by decide)
theorem W8_main_arg2 (c : Dev nD) : W8 m ρ c main_arg2 = m ((c : Thread nD τ).loc main_arg2) :=
  W8_of_kept m ρ c main_arg2 (by decide) (by decide) (by decide) (by decide) (by decide) (by decide) (by decide) (by decide)
theorem W8_main_arg3 (c : Dev nD) : W8 m ρ c main_arg3 = m ((c : Thread nD τ).loc main_arg3) :=
  W8_of_kept m ρ c main_arg3 (by decide) (by decide) (by decide) (by decide) (by decide) (by decide) (by decide) (by decide)
theorem W8_main_arg4 (c : Dev nD) : W8 m ρ c main_arg4 = m ((c : Thread nD τ).loc main_arg4) :=
  W8_of_kept m ρ c main_arg4 (by decide) (by decide) (by decide) (by decide) (by decide) (by decide) (by decide) (by decide)

/-- The run with the result buffer named: it ends at the last boundary's contents, the arguments as launched. -/
theorem run_value : θ_run defs (onTc (τ := τ) (main (F := F))) ⟨m, fun _ => 0, ρ⟩ (fun r => ∀ c : Dev nD,
      r.2.mem ((c.tc : Thread nD τ).loc main_v55) = W8 m ρ c main_v55
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v55 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.KernelIdeal.Hand

end
-- ==== Proof.KI.Entry.lean ====
/-
  What the kernel regions are entered from and what they leave, read back to the launch memory.

  Both regions read the same two arrays: the rows of the user table picked by the (wrapped) user indices and the rows of
  the item table picked by the item indices. No region changes them, and no item before the last stretches changes an index vector.
-/
import proofs.«134188_j81071802679459_2_alg».proof.Proof.KI.Run
import Idealize.ShloMosaic.Lib.StableHlo.Run

noncomputable section
namespace Cert.KernelIdeal.HandValue
open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

/-- The rows of a table picked by an index vector, negative indices wrapped: the gather both programs start with. -/
def rowsOf (tbl : (⟨S100000x64, .f32⟩ : BufTy).Contents (Elt F)) (x : (⟨S8192, .i32⟩ : BufTy).Contents (Elt F)) :
    (⟨S8192x64, .f32⟩ : BufTy).Contents (Elt F) :=
  Host.gather gather_S100000x64_S8192x1_S8192x64_1_0_n_n_0_1_164 tbl
    (broadcastInDim S8192x1 ![0] bcast_S8192_S8192x1_0
      (select (cmpi .slt x (broadcastInDim S8192 ![] bcast_S_S8192 (constantI S_ 32 0#32)))
        (addi x (broadcastInDim S8192 ![] bcast_S_S8192 (constantI S_ 32 100000#32))) x))

variable (m : (ℓ : Loc nD τ sig) → Buf (Elt F) ℓ) (ρ : Dev nD → PrngReg)

/-- The first region's first input array: the gathered user rows. -/
theorem W1_main_v6 (c : Dev nD) : (W1 m ρ c (Proc.devRef .tc main_v6) : S8192x64.Idx → Elt F .f32)
    = rowsOf (m ((c : Thread nD τ).loc main_arg3)) (m ((c : Thread nD τ).loc main_arg0)) := by
  dsimp only [W1, W0, hostOps0]
  after_results
  rfl

/-- Its second input array: the gathered item rows. -/
theorem W1_main_v13 (c : Dev nD) : (W1 m ρ c (Proc.devRef .tc main_v13) : S8192x64.Idx → Elt F .f32)
    = rowsOf (m ((c : Thread nD τ).loc main_arg4)) (m ((c : Thread nD τ).loc main_arg1)) := by
  dsimp only [W1, W0, hostOps0]
  after_results
  rfl

/-- The first region leaves its input arrays as it found them. -/
theorem W2_main_v6 (c : Dev nD) : W2 m ρ c (Proc.devRef .tc main_v6) = W1 m ρ c (Proc.devRef .tc main_v6) :=
  (W2_arr m ρ c 0).trans (((dat0 (V1 m ρ) c).arrAt_in 0 rfl _).trans (A_eq0 (V1 m ρ) c 0))
theorem W2_main_v13 (c : Dev nD) : W2 m ρ c (Proc.devRef .tc main_v13) = W1 m ρ c (Proc.devRef .tc main_v13) :=
  (W2_arr m ρ c 1).trans (((dat0 (V1 m ρ) c).arrAt_in 1 rfl _).trans (A_eq0 (V1 m ρ) c 1))

/-- After both regions the two output arrays hold what the regions' write-backs leave. -/
theorem W3_main_v14 (c : Dev nD) : W3 m ρ c (Proc.devRef .tc main_v14) = (dat0 (V1 m ρ) c).arrAt 2 cfg0.N :=
  (W3_of_ne m ρ c main_v14 (by decide)).trans (W2_arr m ρ c 2)
theorem W3_main_v15 (c : Dev nD) : W3 m ρ c (Proc.devRef .tc main_v15) = (dat1 (V2 m ρ) c).arrAt 2 cfg1.N :=
  W3_arr m ρ c 2

/-- The index vectors reach the last stretches as launched. -/
theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <|
  (StableHlo.after_of_writes_sub hostOps0 _ hostOps0_writes (by decide)).trans rfl
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <|
  (StableHlo.after_of_writes_sub hostOps0 _ hostOps0_writes (by decide)).trans rfl

end Cert.KernelIdeal.HandValue
end
-- ==== Proof.KI.Tail.lean ====
/-
  The end of the program after its two kernel regions, read as one function of what the regions left.

  Two copies of one integer chain count the distinct identifiers of an input vector (clip below at
  zero, wrap negatives, scatter ones into a table of zeros, test each table entry for being positive,
  add the tests up, convert the total to a float); then the two block arrays are summed, the first
  sum is divided by the number of rows and negated, the second is divided by the product of the two
  counts and its logarithm taken, and the two scalars are laid side by side.  The counting chain is
  carried as one function and never looked into.
-/
import proofs.«134188_j81071802679459_2_alg».proof.Proof.Gen.KernelIdeal.Launch
import Idealize.ShloMosaic.Lib.StableHlo.Run
import Idealize.ShloMosaic.PureOps.Ideal.Laws
import Idealize.ShloMosaic.Lib.ValueIdx
import Idealize.ShloMosaic.Lib.Pipeline.Value

noncomputable section

namespace Cert.KernelIdeal.HandValue

open Cert.KernelIdeal Cert.KernelIdeal.Gen
open Idealize.ShloMosaic Idealize.ShloMosaic.TcCoe

/-- An identifier vector clipped below at zero. -/
def clipOf (x : (⟨S8192, .i32⟩ : BufTy).Contents (Elt Ideal)) : (⟨S8192, .i32⟩ : BufTy).Contents (Elt Ideal) :=
  maxsi (broadcastInDim S8192 ![] bcast_S_S8192 (id (constantI S_ 32 0#32))) x

/-- Negative entries moved up by the table's length. -/
def wrapOf (m : (⟨S8192, .i32⟩ : BufTy).Contents (Elt Ideal)) : (⟨S8192, .i32⟩ : BufTy).Contents (Elt Ideal) :=
  select (cmpi .slt m (broadcastInDim S8192 ![] bcast_S_S8192 (constantI S_ 32 0#32)))
    (addi m (broadcastInDim S8192 ![] bcast_S_S8192 (constantI S_ 32 100000#32))) m

/-- The number of distinct table positions an identifier vector hits, as a float. -/
def countOf (x : (⟨S8192, .i32⟩ : BufTy).Contents (Elt Ideal)) : (⟨S_, .f32⟩ : BufTy).Contents (Elt Ideal) :=
  sitofp (F := Ideal) .f32
    (Host.reduce IntOp.addi
      (extui 32
        (cmpi .sgt
          (Host.scatter scatter_S100000_S8192x1_S8192_n_0_0_1 IntOp.addi
            (broadcastInDim S100000 ![] bcast_S_S100000 (constantI S_ 32 0#32))
            (broadcastInDim S8192x1 ![0] bcast_S8192_S8192x1_0 (wrapOf (clipOf x)))
            (broadcastInDim S8192 ![] bcast_S_S8192 (constantI S_ 32 1#32)))
          (broadcastInDim S100000 ![] bcast_S_S100000 (constantI S_ 32 0#32)))
        natLt_1_32)
      (constantI S_ 32 0#32) reducesTo_S100000_S_d0 h_S_)

/-- The two scalars the program returns, from the two block arrays and the two counts: minus the
first array's total over the number of rows, and the logarithm of the second array's total over the
product of the counts. -/
def finishOf (up down : (⟨S8x8x128, .f32⟩ : BufTy).Contents (Elt Ideal))
    (n0 n1 : (⟨S_, .f32⟩ : BufTy).Contents (Elt Ideal)) : (⟨S2, .f32⟩ : BufTy).Contents (Elt Ideal) :=
  concatenate S2 0
    [⟨S1, broadcastInDim S1 ![] bcast_S_S1
        (Host.negf (F := Ideal)
          (Host.divf (F := Ideal)
            (Host.reduceAdd (F := Ideal) up (constant (F := Ideal) S_ .f32 0x00000000#32)
              reducesTo_S8x8x128_S_d0_1_2 h_S_)
            (constant (F := Ideal) S_ .f32 0x46000000#32)))⟩,
     ⟨S1, broadcastInDim S1 ![] bcast_S_S1
        (Host.log (F := Ideal)
          (Host.divf (F := Ideal)
            (Host.reduceAdd (F := Ideal) down (constant (F := Ideal) S_ .f32 0x00000000#32)
              reducesTo_S8x8x128_S_d0_1_2 h_S_)
            (mulf (F := Ideal) n0 n1)))⟩]
    concatenates_S1_S1_S2_d0

set_option maxHeartbeats 1000000 in
/-- What the last result buffer holds once the five closing stretches of host operations have run. -/
theorem tail_value (W : Valuation τ sig (Elt Ideal)) :
    StableHlo.after hostOps2_4 (StableHlo.after hostOps2_3 (StableHlo.after hostOps2_2
      (StableHlo.after hostOps2_1 (StableHlo.after hostOps2 W)))) (Proc.devRef .tc main_v55)
    = finishOf (W (Proc.devRef .tc main_v14)) (W (Proc.devRef .tc main_v15))
        (countOf (W (Proc.devRef .tc main_arg0))) (countOf (W (Proc.devRef .tc main_arg1))) := by
  dsimp only [hostOps2, hostOps2_1, hostOps2_2, hostOps2_3, hostOps2_4]
  simp only [StableHlo.after_cons, StableHlo.after_nil]
  rw [StableHlo.binary_result]
  unfold finishOf
  refine congrArg₂ (fun a b => concatenate S2 0 [⟨S1, a⟩, ⟨S1, b⟩] concatenates_S1_S1_S2_d0) ?_ ?_
  · after_results_simp
  · after_results_simp
    rfl

/-- A sum over a three-coordinate index set is the triple sum over the coordinates. -/
theorem sum_idx3 {M : Type*} [AddCommMonoid M] {n0 n1 n2 : Nat}
    (f : (⟨3, ![n0, n1, n2]⟩ : Shape).Idx → M) :
    ∑ i, f i = ∑ a : Fin n0, ∑ b : Fin n1, ∑ c : Fin n2, f (ValueIdx.ix3 a b c) := by
  let e : (⟨3, ![n0, n1, n2]⟩ : Shape).Idx ≃ Fin n0 × Fin n1 × Fin n2 :=
    ⟨fun i => (i 0, i 1, i 2), fun p => ValueIdx.ix3 p.1 p.2.1 p.2.2,
      fun i => (ValueIdx.eq_ix3 i).symm, fun _ => rfl⟩
  rw [← Equiv.sum_comp e.symm f, Fintype.sum_prod_type]
  simp only [Fintype.sum_prod_type]
  rfl

/-- The host's sum of a block array is the zero word plus the sum of all its entries, block by block. -/
theorem reduce_blocks (up : (⟨S8x8x128, .f32⟩ : BufTy).Contents (Elt Ideal)) :
    Host.reduceAdd (F := Ideal) up (constant (F := Ideal) S_ .f32 0x00000000#32)
        reducesTo_S8x8x128_S_d0_1_2 h_S_
      = fun _ => (Ideal.ofBits .f32 0x00000000#32 : EReal)
          + ∑ t : Fin 8, ∑ a : Fin 8, ∑ b : Fin 128, up (ValueIdx.ix3 t a b) := by
  funext j
  unfold Host.reduceAdd
  rw [Ideal.hostReduceAdd_def, Ideal.hostReduceAdd_total _ (by decide), sum_idx3]
  rfl

end Cert.KernelIdeal.HandValue
-- ==== Proof.Spec.lean ====
/-
  The mathematics both programs compute, over the extended reals, with no program in sight.

  A row of an embedding table is a vector of 64 extended reals. Its clamped length is
  `max (√(Σ x²)) ε`; its direction is the row divided entrywise by that length; the cosine score of two
  rows is the inner product of their directions. Each score `s` contributes
  `exp (s / T) + exp (s² / T)` to the loss. The literals ε and T are kept as their binary words: both
  programs carry the same words, so they are never evaluated.
-/
import Idealize.ShloMosaic.PureOps.Ideal
import Idealize.ShloMosaic.PureOps.Ideal.Laws
import Idealize.ShloMosaic.Lib.ValueIdx

noncomputable section

namespace Cert.Spec

open Idealize.ShloMosaic

/-- The clamp under a length: the word both programs print for `1e-12`. -/
abbrev eps : EReal := Ideal.ofBits .f32 0x2B8CBCCC#32
/-- The temperature: the word both programs print for `0.2`. -/
abbrev temp : EReal := Ideal.ofBits .f32 0x3E4CCCCD#32

/-- The clamped Euclidean length of a row. -/
def len (x : Fin 64 → EReal) : EReal := max (Ideal.sqrt (∑ k : Fin 64, x k * x k)) eps

/-- A row divided by its clamped length. -/
def dir (x : Fin 64 → EReal) (k : Fin 64) : EReal := Ideal.div (x k) (len x)

/-- The cosine score of two rows: the inner product of their directions. -/
def cosim (x y : Fin 64 → EReal) : EReal := ∑ k : Fin 64, dir x k * dir y k

/-- What one score contributes: `exp (s / T) + exp (s² / T)`. -/
def term (s : EReal) : EReal := Ideal.exp (Ideal.div s temp) + Ideal.exp (Ideal.div (s * s) temp)

/-- Row `r` of a table of 8192 rows given as a function of a two-coordinate index. -/
def row (U : (⟨2, ![8192, 64]⟩ : Shape).Idx → EReal) (r : Fin 8192) : Fin 64 → EReal :=
  fun k => U (ValueIdx.ix2 r k)

/-- The matched-pair term of row `r`: `log (term (cosim u_r p_r))`. -/
def upAt (U P : (⟨2, ![8192, 64]⟩ : Shape).Idx → EReal) (r : Fin 8192) : EReal :=
  Ideal.log (term (cosim (row U r) (row P r)))

/-- The all-pairs term of rows `r`, `c`: `term (cosim u_r p_c)`. -/
def downAt (U P : (⟨2, ![8192, 64]⟩ : Shape).Idx → EReal) (r c : Fin 8192) : EReal :=
  term (cosim (row U r) (row P c))

end Cert.Spec

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.KI.UpValue.lean ====
/- The block the first call's kernel stores, read at an index: the logarithm of the matched pair's term,
   the pair being the two input blocks' rows at the row-major position of the index. Over the extended reals. -/
import proofs.«134188_j81071802679459_2_alg».proof.Proof.KI.Up
import proofs.«134188_j81071802679459_2_alg».proof.Proof.Spec
import proofs.«134188_j81071802679459_2_alg».proof.Proof.LibColumn
import proofs.«134188_j81071802679459_2_alg».proof.Proof.LibLaneSum
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.ValueIdx

/-! ## Layout -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- A vector [n] cast to [1, a, b] reads, at (u, i, j), the operand at the row-major position i * b + j. -/
theorem shapeCast_n_1ab_apply {α : Type} {n a b : ℕ} (x : (⟨1, ![n]⟩ : Shape).Idx → α)
    (h : (⟨1, ![n]⟩ : Shape).ShapeCasts ⟨3, ![1, a, b]⟩) (u : Fin 1) (i : Fin a) (j : Fin b) (r : Fin n)
    (hr : r.val = i.val * b + j.val) : shapeCast ⟨3, ![1, a, b]⟩ x h (ix3 u i j) = x (ix1 r) :=
  shapeCast_apply x h _ _ (by
    have hu : u.val = 0 := by omega
    rw [Shape.rowMajor_val_three, Shape.rowMajor_val_one]
    show r.val = (u.val * a + i.val) * b + j.val
    rw [hu, Nat.zero_mul, Nat.zero_add, hr])

/-! ## The clamped length of a row, as the kernel computes it -/

/-- The sum of squares along a row, kept as a column, rooted, clamped below and spread along the row, read at
    an entry of row r: the row's clamped length. -/
abbrev lenVec (x : FVec Ideal S1024x64 .f32) : FVec Ideal S1024x64 .f32 :=
  broadcastTo S1024x64
    (maximumf (sqrt (shapeCast S1024x1 (multiReduction .add [1] S1024 (mulf x x) 0x00000000#32 reduces_S1024x64_S1024 (.inl rfl) rfl) shapeCasts_S1024_S1024x1))
      (broadcast S1024x1 (Scalar.ofBits .f32 0x2B8CBCCC#32 : Ideal .f32)))
    broadcasts_S1024x1_S1024x64

theorem len_apply (x : FVec Ideal S1024x64 .f32) (r : Fin 1024) (k : Fin 64) :
    lenVec x (ix2 r k) = Cert.Spec.len (fun k => x (ix2 r k)) := by
  refine (Cert.GraphConv.Column.broadcastTo_a1_ab_apply _ _ r k).trans ?_
  show max (Ideal.sqrt (shapeCast S1024x1 (multiReduction .add [1] S1024 (mulf x x) 0x00000000#32 reduces_S1024x64_S1024 (.inl rfl) rfl) shapeCasts_S1024_S1024x1 (ix2 r (0 : Fin 1)))) Cert.Spec.eps = _
  unfold Cert.Spec.len
  refine congrArg (fun z => max (Ideal.sqrt z) Cert.Spec.eps) ?_
  refine (Cert.GraphConv.Column.shapeCast_a_a1_apply _ _ r (0 : Fin 1)).trans ?_
  exact Cert.LaneSum.sum_last2 (mulf x x) 0x00000000#32 reduces_S1024x64_S1024 (.inl rfl) rfl r

/-! ## The cosine score of a matched pair of rows, as the kernel computes it -/

/-- The two blocks divided entrywise by their rows' clamped lengths, multiplied entrywise and summed along
    each row, read at row r: the cosine score of the two rows. -/
theorem score_apply (x0 x1 : FVec Ideal S1024x64 .f32) (r : Fin 1024) :
    multiReduction .add [1] S1024 (mulf (divf x0 (lenVec x0)) (divf x1 (lenVec x1))) 0x00000000#32
        reduces_S1024x64_S1024 (.inl rfl) rfl (ix1 r)
      = Cert.Spec.cosim (fun k => x0 (ix2 r k)) (fun k => x1 (ix2 r k)) := by
  refine (Cert.LaneSum.sum_last2 _ 0x00000000#32 reduces_S1024x64_S1024 (.inl rfl) rfl r).trans ?_
  unfold Cert.Spec.cosim Cert.Spec.dir
  refine Finset.sum_congr rfl fun k _ => ?_
  show Ideal.div (x0 (ix2 r k)) (lenVec x0 (ix2 r k)) * Ideal.div (x1 (ix2 r k)) (lenVec x1 (ix2 r k)) = _
  rw [len_apply, len_apply]

/-! ## The stored block at an index -/

/-- The stored payload at (0, a, b), for the row r at row-major position a * 128 + b: the cast to [1, 8, 128] read
    at that position, the pointwise operations read there, and the row's score. -/
theorem k0_pay1_apply (x0 x1 : Vec Ideal S1024x64 .f32) (a : Fin 8) (b : Fin 128) (r : Fin 1024)
    (hr : r.val = a.val * 128 + b.val) :
    k0_pay1 (F := Ideal) x0 x1 (ix3 (0 : Fin 1) a b)
      = Ideal.log (Cert.Spec.term (Cert.Spec.cosim (fun k => x0 (ix2 r k)) (fun k => x1 (ix2 r k)))) := by
  unfold k0_pay1
  dsimp only
  refine (shapeCast_n_1ab_apply _ _ 0 a b r hr).trans ?_
  simp only [shapeCast_self]
  have hs := score_apply x0 x1 r
  unfold Cert.Spec.term
  exact congrArg (fun s => Ideal.log (Ideal.exp (Ideal.div s Cert.Spec.temp) + Ideal.exp (Ideal.div (s * s) Cert.Spec.temp))) hs

/-- The stored block at (0, a, b): the logarithm of the term of the cosine score of the two input blocks'
    rows at position a * 128 + b. -/
theorem out0_2_apply (x0 x1 : Vec Ideal S1024x64 .f32) (a : Fin 8) (b : Fin 128) :
    out0_2 (F := Ideal) x0 x1 (ValueIdx.ix3 (0 : Fin 1) a b)
      = Ideal.log (Cert.Spec.term (Cert.Spec.cosim (fun k => x0 (ValueIdx.ix2 ⟨a.val * 128 + b.val, by omega⟩ k))
          (fun k => x1 (ValueIdx.ix2 ⟨a.val * 128 + b.val, by omega⟩ k)))) := by
  unfold out0_2
  rw [View.canon_unit_zero (S := S1x8x128) zeros3 inb_S1x8x128_S1x8x128_0_0_0]
  simp only [View.ld_unit_zero (S := S1024x64) zeros2 inb_S1024x64_S1024x64_0_0]
  exact k0_pay1_apply x0 x1 a b ⟨a.val * 128 + b.val, by omega⟩ rfl

end Cert.KernelIdeal.HandValue

end
-- ==== Proof.KI.UpArray.lean ====
/- From the blocks to the whole array: after the first call's run its output array holds, at every index
   (p, a, b), the matched-pair term of the two tables' rows at position p * 1024 + a * 128 + b. Over the
   extended reals. -/
import proofs.«134188_j81071802679459_2_alg».proof.Proof.KI.UpValue
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The array the run leaves -/

theorem upArr_bound (j : S8x8x128.Idx) : (j 0).val * 1024 + (j 1).val * 128 + (j 2).val < 8192 := by
  have h0 : (j 0).val < 8 := (j 0).isLt
  have h1 : (j 1).val < 8 := (j 1).isLt
  have h2 : (j 2).val < 128 := (j 2).isLt
  omega

/-- The matched-pair terms of two tables of 8192 rows, laid out [8, 8, 128] in row-major order. -/
def upArr (A B : (⟨2, ![8192, 64]⟩ : Shape).Idx → EReal) : S8x8x128.Idx → EReal := fun j =>
  Cert.Spec.upAt A B ⟨(j 0).val * 1024 + (j 1).val * 128 + (j 2).val, upArr_bound j⟩

/-! ## The windows' index maps over the grid -/

theorem point_lt (t : Fin cfg0.N) : t.val < 8 := lt_of_lt_of_eq t.isLt N_0

/-- Each window's block index at point t: the point along the rows, zero along the rest. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

section Regions
variable (V : (c : Dev nD) → (b : Ref sig .tc) → Buf (Elt Ideal) ((c : Thread nD τ).loc b))

/-! ## The input blocks read where the tables hold them -/

/-- Entry (r, k) of the first input's block at point t is the first table's entry at row t * 1024 + r. -/
theorem read_in0 (c : Dev nD) (t : Fin cfg0.N) (r : Fin 1024) (k : Fin 64) (R : Fin 8192) (hR : R.val = t.val * 1024 + r.val) :
    iblk0 V c 0 t (ix2 r k) = V c main_v6 (ix2 R k) := by
  obtain ⟨e0, e1, e2, e3, e4, e5, e6⟩ := idx_facts0 t
  show V c main_v6 (((cfg0.win 0).blk t).view.emb (ix2 r k)) = V c main_v6 (ix2 R k)
  refine congrArg (V c main_v6) (funext fun a => Fin.ext ?_)
  match a with
  | ⟨0, _⟩ => show win0_0.index t (0 : Fin 2) * 1024 + 1 * r.val = R.val; omega
  | ⟨1, _⟩ => show win0_0.index t (1 : Fin 2) * 64 + 1 * k.val = k.val; omega

/-- Entry (r, k) of the second input's block at point t is the second table's entry at row t * 1024 + r. -/
theorem read_in1 (c : Dev nD) (t : Fin cfg0.N) (r : Fin 1024) (k : Fin 64) (R : Fin 8192) (hR : R.val = t.val * 1024 + r.val) :
    iblk0 V c 1 t (ix2 r k) = V c main_v13 (ix2 R k) := by
  obtain ⟨e0, e1, e2, e3, e4, e5, e6⟩ := idx_facts0 t
  show V c main_v13 (((cfg0.win 1).blk t).view.emb (ix2 r k)) = V c main_v13 (ix2 R k)
  refine congrArg (V c main_v13) (funext fun a => Fin.ext ?_)
  match a with
  | ⟨0, _⟩ => show win0_1.index t (0 : Fin 2) * 1024 + 1 * r.val = R.val; omega
  | ⟨1, _⟩ => show win0_1.index t (1 : Fin 2) * 64 + 1 * k.val = k.val; omega

/-! ## What a point writes back -/

/-- The stored block at point t, at (u, a, b): the array's value at (t, a, b). -/
theorem stored_apply (c : Dev nD) (t : Fin cfg0.N) (u : Fin 1) (a : Fin 8) (b : Fin 128) :
    out0_2 (F := Ideal) (iblk0 V c 0 t) (iblk0 V c 1 t) (ix3 u a b)
      = upArr (V c main_v6) (V c main_v13) (((cfg0.win 2).blk t).view.emb (ix3 u a b)) := by
  have hu : u = (0 : Fin 1) := Fin.ext (by omega)
  subst hu
  have ht := point_lt t
  obtain ⟨e0, e1, e2, e3, e4, e5, e6⟩ := idx_facts0 t
  rw [out0_2_apply]
  unfold upArr Cert.Spec.upAt Cert.Spec.row
  have hrow : ∀ R : Fin 8192, R.val = t.val * 1024 + (a.val * 128 + b.val) →
      Ideal.log (Cert.Spec.term (Cert.Spec.cosim (fun k => iblk0 V c 0 t (ix2 ⟨a.val * 128 + b.val, by omega⟩ k))
        (fun k => iblk0 V c 1 t (ix2 ⟨a.val * 128 + b.val, by omega⟩ k))))
      = Ideal.log (Cert.Spec.term (Cert.Spec.cosim (fun k => V c main_v6 (ix2 R k)) (fun k => V c main_v13 (ix2 R k)))) := by
    intro R hR
    rw [show (fun k => iblk0 V c 0 t (ix2 ⟨a.val * 128 + b.val, by omega⟩ k)) = fun k => V c main_v6 (ix2 R k) from
        funext fun k => read_in0 V c t _ k R hR,
      show (fun k => iblk0 V c 1 t (ix2 ⟨a.val * 128 + b.val, by omega⟩ k)) = fun k => V c main_v13 (ix2 R k) from
        funext fun k => read_in1 V c t _ k R hR]
  refine hrow _ ?_
  show (win0_2.index t (0 : Fin 3) * 1 + 1 * 0) * 1024 + (win0_2.index t (1 : Fin 3) * 8 + 1 * a.val) * 128
      + (win0_2.index t (2 : Fin 3) * 128 + 1 * b.val) = t.val * 1024 + (a.val * 128 + b.val)
  omega

/-- What point t writes back is block t of the array. -/
theorem flushed0_2_eq (c : Dev nD) (t : Fin cfg0.N) :
    (dat0 (F := Ideal) V c).flushed 2 t
      = ((cfg0.win 2).blk t).view.read (Elt Ideal) (upArr (V c main_v6) (V c main_v13)) := by
  show (cfg0.win 2).cut (grid0.coords t) ((dat0 V c).after 2 t) = _
  rw [after0_2]
  funext y
  show out0_2 (F := Ideal) (iblk0 V c 0 t) (iblk0 V c 1 t) y = upArr (V c main_v6) (V c main_v13) (((cfg0.win 2).blk t).view.emb y)
  have hy : y = ix3 (y 0 : Fin 1) (y 1 : Fin 8) (y 2 : Fin 128) := eq_ix3 y
  rw [hy]
  exact stored_apply V c t _ _ _

/-! ## The blocks tile the array -/

/-- An index of the array is in point t's block iff each coordinate is in the block's range on its axis. -/
theorem mem_blk0_2 (t : Fin cfg0.N) (i : S8x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v14).slice (win0_2.rect t)).set ↔ _
  rw [View.set_slice_whole, Rect.mem_set_unit]
  exact Iff.rfl

/-- Every index of the array is in the block of the point its leading coordinate names. -/
theorem cover0_2_arr (i : S8x8x128.Idx) :
    ∃ t : Fin cfg0.N, (cfg0.win 2).flush t = true ∧ i ∈ ((cfg0.win 2).blk t).view.set := by
  have h0 : (i 0).val < 8 := (i 0).isLt
  have h1 : (i 1).val < 8 := (i 1).isLt
  have h2 : (i 2).val < 128 := (i 2).isLt
  have hN : cfg0.N = 8 := N_0
  let t : Fin cfg0.N := ⟨(i 0).val, by rw [hN]; exact h0⟩
  have htv : t.val = (i 0).val := rfl
  obtain ⟨e0, e1, e2, e3, e4, e5, e6⟩ := idx_facts0 t
  refine ⟨t, flush0_2 t, ?_⟩
  rw [mem_blk0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-! ## The array after the run -/

/-- The first call's output array after its run: the matched-pair terms of the two tables as the region finds them. -/
theorem up_array (c : Dev nD) :
    (dat0 (F := Ideal) V c).arrAt 2 cfg0.N = upArr (V c main_v6) (V c main_v13) :=
  (dat0 (F := Ideal) V c).arrAt_eq_of_cover 2 _ (fun t _ => flushed0_2_eq V c t) cover0_2_arr

/-- The same, index by index. -/
theorem up_array_apply (c : Dev nD) (j : S8x8x128.Idx) :
    (dat0 (F := Ideal) V c).arrAt 2 cfg0.N j
      = Cert.Spec.upAt (V c main_v6) (V c main_v13) ⟨(j 0).val * 1024 + (j 1).val * 128 + (j 2).val, upArr_bound j⟩ :=
  congrFun (up_array V c) j

end Regions

end Cert.KernelIdeal.HandValue

end
-- ==== Proof.KI.CrossPay.lean ====
/- The second call's kernel's three payloads, read at an index over the extended reals: the zero block, the
   running block plus each row's sum of the terms of its scores against every row of the other block, and the
   running block recast with a leading unit axis. -/
import proofs.«134188_j81071802679459_2_alg».proof.Proof.KI.UpValue
import proofs.«134188_j81071802679459_2_alg».proof.Proof.Gen.KernelIdeal.Skeleton

set_option maxRecDepth 16384

noncomputable section

namespace Cert.KernelIdeal.HandValue

open Cert.KernelIdeal Cert.KernelIdeal.Gen Cert.KernelIdeal.Hand
open Idealize.ShloMosaic Idealize.ShloMosaic.ValueIdx

/-! ## Layout -/

/-- A vector [n] cast to [a, b] reads, at (i, j), the operand at the row-major position i * b + j. -/
theorem shapeCast_n_ab_apply {α : Type} {n a b : ℕ} (x : (⟨1, ![n]⟩ : Shape).Idx → α)
    (h : (⟨1, ![n]⟩ : Shape).ShapeCasts ⟨2, ![a, b]⟩) (i : Fin a) (j : Fin b) (r : Fin n)
    (hr : r.val = i.val * b + j.val) : shapeCast ⟨2, ![a, b]⟩ x h (ix2 i j) = x (ix1 r) :=
  shapeCast_apply x h _ _ (by
    rw [Shape.rowMajor_val_two, Shape.rowMajor_val_one]
    show r.val = i.val * b + j.val
    exact hr)

/-! ## The product of one block with the other's transpose -/

/-- The contraction: rows of the left block against rows of the right block, along the entries. -/
abbrev simDot := dot_S1024x64_S1024x64_S1024x1024_1_1_0_0_n_n

theorem simDot_lhs0 (i : S1024x1024.Idx) (q : simDot.contr.Idx) : (simDot.lhsIdx i q 0).val = (i 0).val := by
  unfold DotDims.lhsIdx
  rw [dif_neg (show ¬(0 : Fin S1024x64.rank) ∈ simDot.lhsBatch by decide), dif_pos (show (0 : Fin S1024x64.rank) ∈ simDot.lhsNonContracting by decide)]
  rfl
theorem simDot_lhs1 (i : S1024x1024.Idx) (q : simDot.contr.Idx) : (simDot.lhsIdx i q 1).val = (q ⟨0, by decide⟩).val :=
  simDot.lhsIdx_val_of_single rfl i q
theorem simDot_rhs0 (i : S1024x1024.Idx) (q : simDot.contr.Idx) : (simDot.rhsIdx i q 0).val = (i 1).val := by
  unfold DotDims.rhsIdx
  rw [dif_neg (show ¬(0 : Fin S1024x64.rank) ∈ simDot.rhsBatch by decide), dif_pos (show (0 : Fin S1024x64.rank) ∈ simDot.rhsNonContracting by decide)]
  rfl
theorem simDot_rhs1 (i : S1024x1024.Idx) (q : simDot.contr.Idx) : (simDot.rhsIdx i q 1).val = (q ⟨0, by decide⟩).val :=
  simDot.rhsIdx_val_of_single rfl i q

/-- The product into a zero block, at (r, q): the inner product of row r of the left block and row q of the right. -/
theorem sim_apply (y0 y1 : FVec Ideal S1024x64 .f32) (r q : Fin 1024) :
    matmul simDot none y0 y1 (constant S1024x1024 .f32 0x00000000#32) (ix2 r q)
      = ∑ k : Fin 64, y0 (ix2 r k) * y1 (ix2 q k) := by
  show FloatOps.matmul simDot none y0 y1 (constant S1024x1024 .f32 0x00000000#32) (ix2 r q) = _
  rw [Ideal.matmul_constant_zero_apply, ← Equiv.sum_comp (ValueIdx.contrEquiv1 simDot 64 rfl rfl).symm]
  refine Finset.sum_congr rfl fun k _ => ?_
  have hk := ValueIdx.contrEquiv1_symm_val simDot 64 rfl rfl k
  have el : simDot.lhsIdx (ix2 r q) ((ValueIdx.contrEquiv1 simDot 64 rfl rfl).symm k) = ix2 r k := funext fun a => Fin.ext (by
    match a with
    | ⟨0, _⟩ => exact simDot_lhs0 _ _
    | ⟨1, _⟩ => exact (simDot_lhs1 _ _).trans hk)
  have er : simDot.rhsIdx (ix2 r q) ((ValueIdx.contrEquiv1 simDot 64 rfl rfl).symm k) = ix2 q k := funext fun a => Fin.ext (by
    match a with
    | ⟨0, _⟩ => exact simDot_rhs0 _ _
    | ⟨1, _⟩ => exact (simDot_rhs1 _ _).trans hk)
  rw [el, er]

/-- The two blocks divided entrywise by their rows' clamped lengths, then multiplied as above, at (r, q): the
    cosine score of row r of the left block and row q of the right. -/
theorem cross_score_apply (x0 x1 : FVec Ideal S1024x64 .f32) (r q : Fin 1024) :
    matmul simDot none (divf x0 (lenVec x0)) (divf x1 (lenVec x1)) (constant S1024x1024 .f32 0x00000000#32) (ix2 r q)
      = Cert.Spec.cosim (fun k => x0 (ix2 r k)) (fun k => x1 (ix2 q k)) := by
  rw [sim_apply]
  unfold Cert.Spec.cosim Cert.Spec.dir
  refine Finset.sum_congr rfl fun k _ => ?_
  show Ideal.div (x0 (ix2 r k)) (lenVec x0 (ix2 r k)) * Ideal.div (x1 (ix2 q k)) (lenVec x1 (ix2 q k)) = _
  rw [len_apply, len_apply]

/-! ## The payloads at an index -/

/-- The running block after a point, at (a, b), for the row r at row-major position a * 128 + b: what it was
    plus the sum over the other block's rows q of the term of the score of rows r and q. -/
theorem k1_pay3_apply (x0 x1 : Vec Ideal S1024x64 .f32) (prev : Vec Ideal S8x128 .f32) (a : Fin 8) (b : Fin 128) (r : Fin 1024)
    (hr : r.val = a.val * 128 + b.val) :
    k1_pay3 (F := Ideal) x0 x1 prev (ValueIdx.ix2 a b)
      = prev (ValueIdx.ix2 a b) + ∑ q : Fin 1024, Cert.Spec.term (Cert.Spec.cosim (fun k => x0 (ValueIdx.ix2 r k)) (fun k => x1 (ValueIdx.ix2 q k))) := by
  unfold k1_pay3
  dsimp only
  simp only [shapeCast_self]
  refine (addf_apply _ _ _).trans ?_
  refine congrArg (prev (ix2 a b) + ·) ?_
  refine (shapeCast_n_ab_apply _ _ a b r hr).trans ?_
  refine (Cert.LaneSum.sum_last2 _ 0x00000000#32 reduces_S1024x1024_S1024 (.inl rfl) rfl r).trans ?_
  refine Finset.sum_congr rfl fun q _ => ?_
  have hs := cross_score_apply x0 x1 r q
  unfold Cert.Spec.term
  exact congrArg (fun s => Ideal.exp (Ideal.div s Cert.Spec.temp) + Ideal.exp (Ideal.div (s * s) Cert.Spec.temp)) hs

/-- The block the running sum starts from: zero everywhere. -/
theorem k1_pay2_apply (a : Fin 8) (b : Fin 128) :
    k1_pay2 (F := Ideal) (ValueIdx.ix2 a b) = (Ideal.ofBits .f32 0x00000000#32 : EReal) := by
  unfold k1_pay2
  rw [shapeCast_self]
  rfl

/-- The block written out: the running block with a leading unit axis. -/
theorem k1_pay1_apply (v : Vec Ideal S8x128 .f32) (a : Fin 8) (b : Fin 128) :
    k1_pay1 (F := Ideal) v (ValueIdx.ix3 (0 : Fin 1) a b) = v (ValueIdx.ix2 a b) := by
  unfold k1_pay1
  exact shapeCast_ab_1ab_apply v _ 0 a b

end Cert.KernelIdeal.HandValue

end
-- ==== Proof.SumLayout.lean ====
/-
  Pure bookkeeping of finite sums over an additive commutative monoid: a sum over 8192 indices
  regrouped into blocks, and the value of an accumulator that is reset at the start of every
  group of eight steps.  Nothing here needs finiteness of the summands: every statement is about
  an arbitrary additive commutative monoid, and the extended reals are one.
-/
import Mathlib.Data.EReal.Basic
import Mathlib.Algebra.BigOperators.Fin
import Mathlib.Algebra.BigOperators.Intervals
import Mathlib.Algebra.BigOperators.Pi

namespace Cert.SumLayout

open Finset

/-- An index `a * n + b` with `a < m`, `b < n` lies below `m * n`. -/
theorem blk_lt {m n : ℕ} (a : Fin m) (b : Fin n) : a.val * n + b.val < m * n := by
  have ha := a.isLt
  have hb := b.isLt
  calc a.val * n + b.val < a.val * n + n := by omega
    _ = (a.val + 1) * n := by ring
    _ ≤ m * n := Nat.mul_le_mul_right n ha

/-- A sum over `m * n` indices is the sum over `m` blocks of `n` consecutive indices. -/
theorem sum_block {M : Type*} [AddCommMonoid M] (m n : ℕ) (f : Fin (m * n) → M) :
    ∑ a : Fin m, ∑ b : Fin n, f ⟨a.val * n + b.val, blk_lt a b⟩ = ∑ r : Fin (m * n), f r := by
  rw [← finProdFinEquiv.sum_comp, Fintype.sum_prod_type]
  refine Finset.sum_congr rfl fun a _ => Finset.sum_congr rfl fun b _ => ?_
  congr 1
  ext
  simp [finProdFinEquiv, Nat.mul_comm, Nat.add_comm]

/-- 8192 columns as 8 blocks of 1024. -/
theorem sum_cols {M : Type*} [AddCommMonoid M] (g : Fin 8192 → M) :
    ∑ j : Fin 8, ∑ c : Fin 1024, g ⟨j.val * 1024 + c.val, by omega⟩ = ∑ c : Fin 8192, g c := by
  have h := sum_block 8 1024 (fun r => g ⟨r.val, by have := r.isLt; omega⟩)
  exact h

/-- 8192 rows as 8 blocks of 8 sub-blocks of 128. -/
theorem sum_rows {M : Type*} [AddCommMonoid M] (f : Fin 8192 → M) :
    ∑ t : Fin 8, ∑ a : Fin 8, ∑ b : Fin 128,
      f ⟨t.val * 1024 + a.val * 128 + b.val, by omega⟩ = ∑ r : Fin 8192, f r := by
  rw [← sum_cols f]
  refine Finset.sum_congr rfl fun t _ => ?_
  have h := sum_block 8 128
    (fun c => f ⟨t.val * 1024 + c.val, by have := c.isLt; have := t.isLt; omega⟩)
  simp only [Nat.add_assoc] at h ⊢
  exact h

/-- A double sum over 8192 × 8192 pairs, rows in blocks of 8 × 128 inside 8 groups and columns in
8 blocks of 1024. -/
theorem sum_rows_cols {M : Type*} [AddCommMonoid M] (F : Fin 8192 → Fin 8192 → M) :
    ∑ t : Fin 8, ∑ a : Fin 8, ∑ b : Fin 128, ∑ j : Fin 8, ∑ c : Fin 1024,
      F ⟨t.val * 1024 + a.val * 128 + b.val, by omega⟩ ⟨j.val * 1024 + c.val, by omega⟩
      = ∑ r : Fin 8192, ∑ c : Fin 8192, F r c := by
  rw [← sum_rows (fun r => ∑ c : Fin 8192, F r c)]
  refine Finset.sum_congr rfl fun t _ => Finset.sum_congr rfl fun a _ =>
    Finset.sum_congr rfl fun b _ => ?_
  exact sum_cols (F ⟨t.val * 1024 + a.val * 128 + b.val, by omega⟩)

/-- The accumulator after grid point `n`: it is reset to `z` whenever `n` is a multiple of 8,
and in every case the contribution `G n` of the point is then added. -/
def run {M : Type*} [AddCommMonoid M] (z : M) (G : ℕ → M) : ℕ → M
  | 0 => z + G 0
  | n + 1 => if (n + 1) % 8 = 0 then z + G (n + 1) else run z G n + G (n + 1)

theorem run_zero {M : Type*} [AddCommMonoid M] (z : M) (G : ℕ → M) : run z G 0 = z + G 0 := rfl

theorem run_succ {M : Type*} [AddCommMonoid M] (z : M) (G : ℕ → M) (n : ℕ) :
    run z G (n + 1) = if (n + 1) % 8 = 0 then z + G (n + 1) else run z G n + G (n + 1) := rfl

/-- At a multiple of 8 the accumulator is the reset value plus that point's contribution. -/
theorem run_reset {M : Type*} [AddCommMonoid M] (z : M) (G : ℕ → M) (n : ℕ) (h : n % 8 = 0) :
    run z G n = z + G n := by
  cases n with
  | zero => rfl
  | succ n => rw [run_succ, if_pos h]

/-- Off a multiple of 8 the accumulator is its previous value plus that point's contribution. -/
theorem run_step {M : Type*} [AddCommMonoid M] (z : M) (G : ℕ → M) (n : ℕ) (h : (n + 1) % 8 ≠ 0) :
    run z G (n + 1) = run z G n + G (n + 1) := by
  rw [run_succ, if_neg h]

/-- Inside group `i` the accumulator is the reset value plus the contributions of the group so far. -/
theorem run_partial {M : Type*} [AddCommMonoid M] (z : M) (G : ℕ → M) (i j : ℕ) (hj : j < 8) :
    run z G (8 * i + j) = z + ∑ k ∈ Finset.range (j + 1), G (8 * i + k) := by
  induction j with
  | zero =>
    rw [run_reset z G (8 * i + 0) (by omega)]
    simp
  | succ j ih =>
    have hstep : (8 * i + j + 1) % 8 ≠ 0 := by omega
    show run z G (8 * i + j + 1) = _
    rw [run_step z G (8 * i + j) hstep, ih (by omega), Finset.sum_range_succ _ (j + 1),
      add_assoc]
    rfl

/-- At the last point of group `i` the accumulator is the reset value plus the whole group. -/
theorem run_last {M : Type*} [AddCommMonoid M] (z : M) (G : ℕ → M) (i : ℕ) :
    run z G (8 * i + 7) = z + ∑ j : Fin 8, G (8 * i + j.val) := by
  rw [run_partial z G i 7 (by omega), Fin.sum_univ_eq_sum_range (fun k => G (8 * i + k)) 8]

/-- The accumulator of vectors is, entry by entry, the accumulator of the entries. -/
theorem run_apply {ι : Type*} (z : ι → EReal) (G : ℕ → ι → EReal) (n : ℕ) (x : ι) :
    run z G n x = run (z x) (fun n => G n x) n := by
  induction n with
  | zero => rfl
  | succ n ih =>
    rw [run_succ, run_succ]
    split
    · rfl
    · rw [Pi.add_apply, ih]

/-- The entry form of `run_last`. -/
theorem run_last_apply {ι : Type*} (z : ι → EReal) (G : ℕ → ι → EReal) (i : ℕ) (x : ι) :
    run z G (8 * i + 7) x = z x + ∑ j : Fin 8, G (8 * i + j.val) x := by
  rw [run_apply, run_last]

/-- With reset value zero the accumulator at the end of a group is the sum over the group. -/
theorem run_last_zero {M : Type*} [AddCommMonoid M] (G : ℕ → M) (i : ℕ) :
    run 0 G (8 * i + 7) = ∑ j : Fin 8, G (8 * i + j.val) := by
  rw [run_last, zero_add]

end Cert.SumLayout
-- ==== Proof.KI.CrossArray.lean ====
/- From the carried block of partial sums to the whole array: after the second call's run its output array holds,
   at every index (p, a, b), zero plus the sum, over all 8192 rows of the second table, of the all-pairs term of
   row p * 1024 + a * 128 + b of the first table against that row. Over the extended reals. -/
import proofs.«134188_j81071802679459_2_alg».proof.Proof.KI.Cross
import proofs.«134188_j81071802679459_2_alg».proof.Proof.KI.CrossPay
import proofs.«134188_j81071802679459_2_alg».proof.Proof.SumLayout
import proofs.«134188_j81071802679459_2_alg».proof.Proof.Spec
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The array the run leaves -/

theorem crossArr_bound (j : S8x8x128.Idx) : (j 0).val * 1024 + (j 1).val * 128 + (j 2).val < 8192 := by
  have h0 : (j 0).val < 8 := (j 0).isLt
  have h1 : (j 1).val < 8 := (j 1).isLt
  have h2 : (j 2).val < 128 := (j 2).isLt
  omega

theorem crossCol_bound (jj : Fin 8) (q : Fin 1024) : jj.val * 1024 + q.val < 8192 := by
  have h0 := jj.isLt
  have h1 := q.isLt
  omega

/-- The zero word both programs start the row sums from, as an extended real. -/
abbrev zeroE : EReal := (Ideal.ofBits .f32 0x00000000#32 : EReal)

/-- Zero plus each row's sum of its all-pairs terms against the 8192 rows of the other table (in 8 blocks of 1024),
    laid out [8, 8, 128] in row-major order. -/
def crossArr (A B : (⟨2, ![8192, 64]⟩ : Shape).Idx → EReal) : S8x8x128.Idx → EReal := fun j =>
  zeroE + ∑ jj : Fin 8, ∑ q : Fin 1024,
    Cert.Spec.downAt A B ⟨(j 0).val * 1024 + (j 1).val * 128 + (j 2).val, crossArr_bound j⟩ ⟨jj.val * 1024 + q.val, crossCol_bound jj q⟩

/-! ## The windows' index maps over the grid -/

theorem point1_lt (t : Fin cfg1.N) : t.val < 64 := lt_of_lt_of_eq t.isLt N_1

/-- Each window's block index at point t: the first input's and the output's follow the first grid coordinate, the
    second input's the second; zero along the other axes. -/
theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 3) = t.val / 8 ∧ win1_2.index t (1 : Fin 3) = 0 ∧ win1_2.index t (2 : Fin 3) = 0 :=
  (by decide +kernel : ∀ t : Fin grid1.N, _)

section Regions
variable (V : (c : Dev nD) → (b : Ref sig .tc) → Buf (Elt Ideal) ((c : Thread nD τ).loc b))

/-! ## The input blocks read where the tables hold them -/

/-- Entry (r, k) of the first input's block at point t is the first table's entry at row (t / 8) * 1024 + r. -/
theorem read1_in0 (c : Dev nD) (t : Fin cfg1.N) (r : Fin 1024) (k : Fin 64) (R : Fin 8192) (hR : R.val = (t.val / 8) * 1024 + r.val) :
    iblk1 V c 0 t (ix2 r k) = V c main_v6 (ix2 R k) := by
  obtain ⟨e0, e1, e2, e3, e4, e5, e6⟩ := idx_facts1 t
  show V c main_v6 (((cfg1.win 0).blk t).view.emb (ix2 r k)) = V c main_v6 (ix2 R k)
  refine congrArg (V c main_v6) (funext fun a => Fin.ext ?_)
  match a with
  | ⟨0, _⟩ => show win1_0.index t (0 : Fin 2) * 1024 + 1 * r.val = R.val; omega
  | ⟨1, _⟩ => show win1_0.index t (1 : Fin 2) * 64 + 1 * k.val = k.val; omega

/-- Entry (q, k) of the second input's block at point t is the second table's entry at row (t % 8) * 1024 + q. -/
theorem read1_in1 (c : Dev nD) (t : Fin cfg1.N) (q : Fin 1024) (k : Fin 64) (R : Fin 8192) (hR : R.val = (t.val % 8) * 1024 + q.val) :
    iblk1 V c 1 t (ix2 q k) = V c main_v13 (ix2 R k) := by
  obtain ⟨e0, e1, e2, e3, e4, e5, e6⟩ := idx_facts1 t
  show V c main_v13 (((cfg1.win 1).blk t).view.emb (ix2 q k)) = V c main_v13 (ix2 R k)
  refine congrArg (V c main_v13) (funext fun a => Fin.ext ?_)
  match a with
  | ⟨0, _⟩ => show win1_1.index t (0 : Fin 2) * 1024 + 1 * q.val = R.val; omega
  | ⟨1, _⟩ => show win1_1.index t (1 : Fin 2) * 64 + 1 * k.val = k.val; omega

/-! ## The carried block, entry by entry, as a running sum over the points -/

/-- What point n adds to the entry of row r of the carried block: the sum, over the rows of the second input's block
    there, of the term of the score of row r of the first input's block against them (nothing past the grid). -/
def contrib1 (c : Dev nD) (r : Fin 1024) : ℕ → EReal := fun n =>
  if h : n < cfg1.N then
    ∑ q : Fin 1024, Cert.Spec.term (Cert.Spec.cosim (fun k => (iblk1 V c 0 ⟨n, h⟩ : Vec Ideal S1024x64 .f32) (ix2 r k))
      (fun k => (iblk1 V c 1 ⟨n, h⟩ : Vec Ideal S1024x64 .f32) (ix2 q k)))
  else 0

/-- The carried block after point n, at (a, b) — row r = a * 128 + b of the block —, is the running sum of the
    points' contributions to that row, restarted from zero at every eighth point. -/
theorem acc1_apply (c : Dev nD) (a : Fin 8) (b : Fin 128) (r : Fin 1024) (hr : r.val = a.val * 128 + b.val) :
    ∀ (n : ℕ) (h : n < cfg1.N), acc1 (F := Ideal) V c n h (ix2 a b) = Cert.SumLayout.run zeroE (contrib1 V c r) n := by
  intro n
  induction n with
  | zero =>
    intro h
    rw [acc1_first V c 0 h (Nat.zero_mod _), step1_eq, k1_pay3_apply _ _ _ a b r hr, zero1_eq, k1_pay2_apply,
      Cert.SumLayout.run_zero]
    unfold contrib1; rw [dif_pos h]
  | succ n ih =>
    intro h
    by_cases h0 : (n + 1) % 8 = 0
    · rw [acc1_first V c (n + 1) h h0, step1_eq, k1_pay3_apply _ _ _ a b r hr, zero1_eq, k1_pay2_apply,
        Cert.SumLayout.run_reset _ _ (n + 1) h0]
      unfold contrib1; rw [dif_pos h]
    · rw [acc1_next V c (n + 1) h h0, step1_eq, k1_pay3_apply _ _ _ a b r hr, Cert.SumLayout.run_step _ _ n h0]
      rw [show acc1 (F := Ideal) V c (n + 1 - 1) (Nat.lt_of_le_of_lt (Nat.sub_le _ _) h) (ix2 a b)
          = Cert.SumLayout.run zeroE (contrib1 V c r) n from ih (Nat.lt_of_succ_lt h)]
      unfold contrib1; rw [dif_pos h]

/-! ## A point's contribution, read where the tables hold the rows -/

/-- The contribution of the j-th point of the i-th run of eight to row r of the carried block: the all-pairs terms of
    the first table's row i * 1024 + r against block j of the second table's rows. -/
theorem contrib1_eq (c : Dev nD) (i : ℕ) (jj : Fin 8) (hlt : 8 * i + jj.val < cfg1.N) (r : Fin 1024) (R : Fin 8192)
    (hR : R.val = i * 1024 + r.val) :
    contrib1 V c r (8 * i + jj.val)
      = ∑ q : Fin 1024, Cert.Spec.downAt (V c main_v6) (V c main_v13) R ⟨jj.val * 1024 + q.val, crossCol_bound jj q⟩ := by
  unfold contrib1; rw [dif_pos hlt]
  refine Finset.sum_congr rfl fun q _ => ?_
  unfold Cert.Spec.downAt Cert.Spec.row
  have hj := jj.isLt
  rw [show (fun k => (iblk1 V c 0 ⟨8 * i + jj.val, hlt⟩ : Vec Ideal S1024x64 .f32) (ix2 r k)) = fun k => V c main_v6 (ix2 R k) from
      funext fun k => read1_in0 V c ⟨8 * i + jj.val, hlt⟩ r k R (by show R.val = (8 * i + jj.val) / 8 * 1024 + r.val; omega),
    show (fun k => (iblk1 V c 1 ⟨8 * i + jj.val, hlt⟩ : Vec Ideal S1024x64 .f32) (ix2 q k))
        = fun k => V c main_v13 (ix2 (⟨jj.val * 1024 + q.val, crossCol_bound jj q⟩ : Fin 8192) k) from
      funext fun k => read1_in1 V c ⟨8 * i + jj.val, hlt⟩ q k _ (by show jj.val * 1024 + q.val = (8 * i + jj.val) % 8 * 1024 + q.val; omega)]

/-! ## What a point writes back -/

/-- The stored block at the last point t of a run of eight, at (u, a, b): the array's value at (t / 8, a, b). -/
theorem stored1_apply (c : Dev nD) (t : Fin cfg1.N) (h7 : t.val % 8 = 7) (u : Fin 1) (a : Fin 8) (b : Fin 128) :
    fin1 (F := Ideal) (acc1 V c t.val t.isLt) (ix3 u a b)
      = crossArr (V c main_v6) (V c main_v13) (((cfg1.win 2).blk t).view.emb (ix3 u a b)) := by
  have hu : u = (0 : Fin 1) := Fin.ext (by omega)
  subst hu
  have ht := point1_lt t
  have ha := a.isLt
  have hb := b.isLt
  obtain ⟨e0, e1, e2, e3, e4, e5, e6⟩ := idx_facts1 t
  rw [fin1_eq, k1_pay1_apply, acc1_apply V c a b ⟨a.val * 128 + b.val, by omega⟩ rfl t.val t.isLt]
  have hlast := Cert.SumLayout.run_last zeroE (contrib1 V c ⟨a.val * 128 + b.val, by omega⟩) (t.val / 8)
  rw [show 8 * (t.val / 8) + 7 = t.val from by omega] at hlast
  rw [hlast]
  unfold crossArr
  refine congrArg (zeroE + ·) (Finset.sum_congr rfl fun jj _ => ?_)
  have hj := jj.isLt
  refine contrib1_eq V c (t.val / 8) jj (lt_of_lt_of_eq (by omega : 8 * (t.val / 8) + jj.val < 64) (N_1.symm : 64 = cfg1.N)) _ _ ?_
  show (win1_2.index t (0 : Fin 3) * 1 + 1 * 0) * 1024 + (win1_2.index t (1 : Fin 3) * 8 + 1 * a.val) * 128
      + (win1_2.index t (2 : Fin 3) * 128 + 1 * b.val) = t.val / 8 * 1024 + (a.val * 128 + b.val)
  omega

/-- What the last point t of a run writes back is block t / 8 of the array. -/
theorem flushed1_2_eq (c : Dev nD) (t : Fin cfg1.N) (hf : (cfg1.win 2).flush t = true) :
    (dat1 (F := Ideal) V c).flushed 2 t
      = ((cfg1.win 2).blk t).view.read (Elt Ideal) (crossArr (V c main_v6) (V c main_v13)) := by
  have h7 : t.val % 8 = 7 := (flush1_2 t).mp hf
  show (cfg1.win 2).cut (grid1.coords t) ((dat1 V c).after 2 t) = _
  rw [after1_2]
  funext y
  show fin1 (F := Ideal) (acc1 V c t.val t.isLt) y = crossArr (V c main_v6) (V c main_v13) (((cfg1.win 2).blk t).view.emb y)
  have hy : y = ix3 (y 0 : Fin 1) (y 1 : Fin 8) (y 2 : Fin 128) := eq_ix3 y
  rw [hy]
  exact stored1_apply V c t h7 _ _ _

/-! ## The blocks tile the array -/

/-- An index of the array is in point t's block iff each coordinate is in the block's range on its axis. -/
theorem mem_blk1_2 (t : Fin cfg1.N) (i : S8x8x128.Idx) :
    i ∈ ((cfg1.win 2).blk t).view.set ↔ ∀ a : Fin 3, win1_2.index t a * S1x8x128.size a ≤ (i a).val ∧ (i a).val < win1_2.index t a * S1x8x128.size a + S1x8x128.size a := by
  show i ∈ ((View.whole main_v15).slice (win1_2.rect t)).set ↔ _
  rw [View.set_slice_whole, Rect.mem_set_unit]
  exact Iff.rfl

/-- Every index of the array is in the block written back at the last point of the run its leading coordinate names. -/
theorem cover1_2_arr (i : S8x8x128.Idx) :
    ∃ t : Fin cfg1.N, (cfg1.win 2).flush t = true ∧ i ∈ ((cfg1.win 2).blk t).view.set := by
  have h0 : (i 0).val < 8 := (i 0).isLt
  have h1 : (i 1).val < 8 := (i 1).isLt
  have h2 : (i 2).val < 128 := (i 2).isLt
  have hN : cfg1.N = 64 := N_1
  let t : Fin cfg1.N := ⟨8 * (i 0).val + 7, by rw [hN]; omega⟩
  have htv : t.val = 8 * (i 0).val + 7 := rfl
  obtain ⟨e0, e1, e2, e3, e4, e5, e6⟩ := idx_facts1 t
  refine ⟨t, (flush1_2 t).mpr (by rw [htv]; omega), ?_⟩
  rw [mem_blk1_2]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 8 ≤ (i 1).val ∧ (i 1).val < win1_2.index t (1 : Fin 3) * 8 + 8; omega
  | ⟨2, _⟩ => show win1_2.index t (2 : Fin 3) * 128 ≤ (i 2).val ∧ (i 2).val < win1_2.index t (2 : Fin 3) * 128 + 128; omega

/-! ## The array after the run -/

/-- The second call's output array after its run: zero plus each row's all-pairs sum over the other table's rows. -/
theorem cross_array (c : Dev nD) :
    (dat1 (F := Ideal) V c).arrAt 2 cfg1.N = crossArr (V c main_v6) (V c main_v13) :=
  (dat1 (F := Ideal) V c).arrAt_eq_of_cover 2 _ (fun t hf => flushed1_2_eq V c t hf) cover1_2_arr

/-- The same with the array written out. -/
theorem cross_array' (c : Dev nD) :
    (dat1 (F := Ideal) V c).arrAt 2 cfg1.N = fun j : S8x8x128.Idx =>
      (Ideal.ofBits .f32 0x00000000#32 : EReal) + ∑ jj : Fin 8, ∑ q : Fin 1024,
        Cert.Spec.downAt (V c main_v6) (V c main_v13) ⟨(j 0).val * 1024 + (j 1).val * 128 + (j 2).val, crossArr_bound j⟩
          ⟨jj.val * 1024 + q.val, crossCol_bound jj q⟩ :=
  cross_array V c

end Regions

end Cert.KernelIdeal.HandValue

end
-- ==== Proof.KI.KernelValue.lean ====
/-
  The idealized kernel program's result, as one function of the launch memory: the closing host operations applied to the two
  regions' output arrays, which are the per-row terms of the matched pairs and the per-row sums of the all-pairs terms over
  the rows both regions read.
-/
import proofs.«134188_j81071802679459_2_alg».proof.Proof.KI.Entry
import proofs.«134188_j81071802679459_2_alg».proof.Proof.KI.Tail
import proofs.«134188_j81071802679459_2_alg».proof.Proof.KI.UpArray
import proofs.«134188_j81071802679459_2_alg».proof.Proof.KI.CrossArray

noncomputable section
namespace Cert.KernelIdeal.HandValue
open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer after the run: the closing operations over the two output arrays and the two index vectors. -/
theorem kernel_result (c : Dev nD) :
    W8 (F := Ideal) m ρ c (Proc.devRef .tc main_v55)
      = finishOf
          (upArr (rowsOf (m ((c : Thread nD τ).loc main_arg3)) (m ((c : Thread nD τ).loc main_arg0)))
                 (rowsOf (m ((c : Thread nD τ).loc main_arg4)) (m ((c : Thread nD τ).loc main_arg1))))
          (crossArr (rowsOf (m ((c : Thread nD τ).loc main_arg3)) (m ((c : Thread nD τ).loc main_arg0)))
                   (rowsOf (m ((c : Thread nD τ).loc main_arg4)) (m ((c : Thread nD τ).loc main_arg1))))
          (countOf (m ((c : Thread nD τ).loc main_arg0))) (countOf (m ((c : Thread nD τ).loc main_arg1))) := by
  have e14 : W3 m ρ c (Proc.devRef .tc main_v14)
      = upArr (rowsOf (m ((c : Thread nD τ).loc main_arg3)) (m ((c : Thread nD τ).loc main_arg0)))
              (rowsOf (m ((c : Thread nD τ).loc main_arg4)) (m ((c : Thread nD τ).loc main_arg1))) := by
    rw [W3_main_v14, up_array (V1 m ρ) c]
    exact congrArg₂ upArr (W1_main_v6 m ρ c) (W1_main_v13 m ρ c)
  have e15 : W3 m ρ c (Proc.devRef .tc main_v15)
      = crossArr (rowsOf (m ((c : Thread nD τ).loc main_arg3)) (m ((c : Thread nD τ).loc main_arg0)))
                (rowsOf (m ((c : Thread nD τ).loc main_arg4)) (m ((c : Thread nD τ).loc main_arg1))) := by
    rw [W3_main_v15, cross_array (V2 m ρ) c]
    exact congrArg₂ crossArr ((W2_main_v6 m ρ c).trans (W1_main_v6 m ρ c)) ((W2_main_v13 m ρ c).trans (W1_main_v13 m ρ c))
  show StableHlo.after hostOps2_4 (StableHlo.after hostOps2_3 (StableHlo.after hostOps2_2 (StableHlo.after hostOps2_1
    (StableHlo.after hostOps2 (W3 m ρ c))))) (Proc.devRef .tc main_v55) = _
  rw [tail_value (W3 m ρ c), e14, e15, W3_main_arg0, W3_main_arg1]

end Cert.KernelIdeal.HandValue
end
-- ==== Proof.RefFrame.lean ====
/-
  The reference's frame: every weakly fair run of the reference ends with each of its five arguments
  holding what it held at the start. This is the argument part of what the reference's run states.
-/
import proofs.«134188_j81071802679459_2_alg».proof.Defs
import proofs.«134188_j81071802679459_2_alg».proof.Proof.PRun
import proofs.«134188_j81071802679459_2_alg».proof.Proof.Gen.Pre_finite_inputs

noncomputable section

namespace Cert.Proof.Ref

open Idealize.ShloMosaic Idealize.SL.Sem

/-- The reference's frame: the run's statement with the result's conjunct dropped. -/
theorem frame_ri : Cert.frame_ReferenceIdeal := fun m ρ _ =>
  (θ_run Cert.ReferenceIdeal.defs _ _).mono (fun _ h c => (h c).2)
    (Cert.ReferenceIdeal.Value.run (F := Ideal) m ρ)

end Cert.Proof.Ref

end
-- ==== Proof.RefRun.lean ====
/-
  The reference's list of 125 operations, folded over any contents of the buffers, leaves in the returned
  buffer the last stage of the staged reading applied to the four arguments that are read.

  The list is cut into eight stretches at points where few buffers are still to be read: the user rows
  divided by their clamped lengths; the item rows likewise; the matched-pair total and its mean; the
  all-pairs total; the two counts of distinct indices; the six operations that form the two entries; the operation that
  joins them into the vector of two. A fold over a concatenation is the fold over the second list of the fold over the first. For each
  stretch, from ANY contents, the buffer it computes holds its stage of the buffers it reads, and each buffer
  still to be read later keeps what it held. Chaining the eight gives the whole list, and with it the run.
-/
import proofs.«134188_j81071802679459_2_alg».proof.Proof.PRead

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- A fold over a concatenation is the fold over the second list of the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

variable {F : FTy → Type} [FloatOps F]

/-- Operations a, …, a + n − 1 of the reference's list. -/
def stretch (a n : Nat) : List (HloOp τ sig (Elt F)) := ((Value.ops (F := F)).drop a).take n

/-- The list is its eight stretches in order. -/
theorem ops_split :
    Value.ops (F := F)
      = stretch 0 19 ++ (stretch 19 19 ++ (stretch 38 18 ++ (stretch 56 14 ++ (stretch 70 24 ++
          (stretch 94 24 ++ (stretch 118 6 ++ stretch 124 1)))))) := rfl

/-- Opens a stretch into its literal list and reads the fold at one buffer: each operation's result at its own
    buffer is its function of its operands, and any other buffer is left as it was. -/
local macro "read_stretch" : tactic =>
  `(tactic| (simp only [stretch, Value.ops, List.drop_succ_cons, List.drop_zero, List.take_succ_cons, List.take_zero]
             after_results_simp))

/-! ### Operations 0 – 18: the user rows gathered and divided by their clamped lengths -/

theorem s1_v11 (V : Valuation τ sig (Elt F)) :
    after (stretch (F := F) 0 19) V (Proc.devRef .tc main_v11)
      = Read.val_main_v11 (F := F) (V (Proc.devRef .tc main_arg0)) (V (Proc.devRef .tc main_arg3)) := by
  read_stretch <;> rfl
theorem s1_arg0 (V : Valuation τ sig (Elt F)) :
    after (stretch (F := F) 0 19) V (Proc.devRef .tc main_arg0) = V (Proc.devRef .tc main_arg0) := by
  read_stretch <;> rfl
theorem s1_arg1 (V : Valuation τ sig (Elt F)) :
    after (stretch (F := F) 0 19) V (Proc.devRef .tc main_arg1) = V (Proc.devRef .tc main_arg1) := by
  read_stretch <;> rfl
theorem s1_arg4 (V : Valuation τ sig (Elt F)) :
    after (stretch (F := F) 0 19) V (Proc.devRef .tc main_arg4) = V (Proc.devRef .tc main_arg4) := by
  read_stretch <;> rfl

/-! ### Operations 19 – 37: the item rows gathered and divided by their clamped lengths -/

theorem s2_v23 (V : Valuation τ sig (Elt F)) :
    after (stretch (F := F) 19 19) V (Proc.devRef .tc main_v23)
      = Read.val_main_v23 (F := F) (V (Proc.devRef .tc main_arg1)) (V (Proc.devRef .tc main_arg4)) := by
  read_stretch <;> rfl
theorem s2_v11 (V : Valuation τ sig (Elt F)) :
    after (stretch (F := F) 19 19) V (Proc.devRef .tc main_v11) = V (Proc.devRef .tc main_v11) := by
  read_stretch <;> rfl
theorem s2_arg0 (V : Valuation τ sig (Elt F)) :
    after (stretch (F := F) 19 19) V (Proc.devRef .tc main_arg0) = V (Proc.devRef .tc main_arg0) := by
  read_stretch <;> rfl
theorem s2_arg1 (V : Valuation τ sig (Elt F)) :
    after (stretch (F := F) 19 19) V (Proc.devRef .tc main_arg1) = V (Proc.devRef .tc main_arg1) := by
  read_stretch <;> rfl

/-! ### Operations 38 – 55: the matched-pair scores, their terms, the total and its mean -/

theorem s3_v36 (V : Valuation τ sig (Elt F)) (x0 x1 : (⟨S8192, .i32⟩ : BufTy).Contents (Elt F)) (x3 x4 : (⟨S100000x64, .f32⟩ : BufTy).Contents (Elt F))
    (hv11 : V (Proc.devRef .tc main_v11) = Read.val_main_v11 (F := F) x0 x3)
    (hv23 : V (Proc.devRef .tc main_v23) = Read.val_main_v23 (F := F) x1 x4) :
    after (stretch (F := F) 38 18) V (Proc.devRef .tc main_v36) = Read.val_main_v36 (F := F) x0 x1 x3 x4 := by
  read_stretch
  rw [hv11, hv23]
  rfl
theorem s3_v11 (V : Valuation τ sig (Elt F)) :
    after (stretch (F := F) 38 18) V (Proc.devRef .tc main_v11) = V (Proc.devRef .tc main_v11) := by
  read_stretch <;> rfl
theorem s3_v23 (V : Valuation τ sig (Elt F)) :
    after (stretch (F := F) 38 18) V (Proc.devRef .tc main_v23) = V (Proc.devRef .tc main_v23) := by
  read_stretch <;> rfl
theorem s3_arg0 (V : Valuation τ sig (Elt F)) :
    after (stretch (F := F) 38 18) V (Proc.devRef .tc main_arg0) = V (Proc.devRef .tc main_arg0) := by
  read_stretch <;> rfl
theorem s3_arg1 (V : Valuation τ sig (Elt F)) :
    after (stretch (F := F) 38 18) V (Proc.devRef .tc main_arg1) = V (Proc.devRef .tc main_arg1) := by
  read_stretch <;> rfl

/-! ### Operations 56 – 69: the all-pairs scores, their terms and the total -/

theorem s4_v47 (V : Valuation τ sig (Elt F)) (x0 x1 : (⟨S8192, .i32⟩ : BufTy).Contents (Elt F)) (x3 x4 : (⟨S100000x64, .f32⟩ : BufTy).Contents (Elt F))
    (hv11 : V (Proc.devRef .tc main_v11) = Read.val_main_v11 (F := F) x0 x3)
    (hv23 : V (Proc.devRef .tc main_v23) = Read.val_main_v23 (F := F) x1 x4) :
    after (stretch (F := F) 56 14) V (Proc.devRef .tc main_v47) = Read.val_main_v47 (F := F) x0 x1 x3 x4 := by
  read_stretch
  rw [hv11, hv23]
  rfl
theorem s4_v36 (V : Valuation τ sig (Elt F)) :
    after (stretch (F := F) 56 14) V (Proc.devRef .tc main_v36) = V (Proc.devRef .tc main_v36) := by
  read_stretch <;> rfl
theorem s4_arg0 (V : Valuation τ sig (Elt F)) :
    after (stretch (F := F) 56 14) V (Proc.devRef .tc main_arg0) = V (Proc.devRef .tc main_arg0) := by
  read_stretch <;> rfl
theorem s4_arg1 (V : Valuation τ sig (Elt F)) :
    after (stretch (F := F) 56 14) V (Proc.devRef .tc main_arg1) = V (Proc.devRef .tc main_arg1) := by
  read_stretch <;> rfl

/-! ### Operations 70 – 93: the count of distinct user indices -/

theorem s5_v62 (V : Valuation τ sig (Elt F)) :
    after (stretch (F := F) 70 24) V (Proc.devRef .tc main_v62) = Read.val_main_v62 (F := F) (V (Proc.devRef .tc main_arg0)) := by
  read_stretch <;> rfl
theorem s5_v36 (V : Valuation τ sig (Elt F)) :
    after (stretch (F := F) 70 24) V (Proc.devRef .tc main_v36) = V (Proc.devRef .tc main_v36) := by
  read_stretch <;> rfl
theorem s5_v47 (V : Valuation τ sig (Elt F)) :
    after (stretch (F := F) 70 24) V (Proc.devRef .tc main_v47) = V (Proc.devRef .tc main_v47) := by
  read_stretch <;> rfl
theorem s5_arg1 (V : Valuation τ sig (Elt F)) :
    after (stretch (F := F) 70 24) V (Proc.devRef .tc main_arg1) = V (Proc.devRef .tc main_arg1) := by
  read_stretch <;> rfl

/-! ### Operations 94 – 117: the count of distinct item indices -/

theorem s6_v77 (V : Valuation τ sig (Elt F)) :
    after (stretch (F := F) 94 24) V (Proc.devRef .tc main_v77) = Read.val_main_v77 (F := F) (V (Proc.devRef .tc main_arg1)) := by
  read_stretch <;> rfl
theorem s6_v36 (V : Valuation τ sig (Elt F)) :
    after (stretch (F := F) 94 24) V (Proc.devRef .tc main_v36) = V (Proc.devRef .tc main_v36) := by
  read_stretch <;> rfl
theorem s6_v47 (V : Valuation τ sig (Elt F)) :
    after (stretch (F := F) 94 24) V (Proc.devRef .tc main_v47) = V (Proc.devRef .tc main_v47) := by
  read_stretch <;> rfl
theorem s6_v62 (V : Valuation τ sig (Elt F)) :
    after (stretch (F := F) 94 24) V (Proc.devRef .tc main_v62) = V (Proc.devRef .tc main_v62) := by
  read_stretch <;> rfl

/-! ### Operations 118 – 123: the two returned entries -/

theorem s7_v82 (V : Valuation τ sig (Elt F)) (x0 x1 : (⟨S8192, .i32⟩ : BufTy).Contents (Elt F)) (x3 x4 : (⟨S100000x64, .f32⟩ : BufTy).Contents (Elt F))
    (hv36 : V (Proc.devRef .tc main_v36) = Read.val_main_v36 (F := F) x0 x1 x3 x4) :
    after (stretch (F := F) 118 6) V (Proc.devRef .tc main_v82) = Read.val_main_v82 (F := F) x0 x1 x3 x4 := by
  read_stretch
  rw [hv36]
  rfl
theorem s7_v83 (V : Valuation τ sig (Elt F)) (x0 x1 : (⟨S8192, .i32⟩ : BufTy).Contents (Elt F)) (x3 x4 : (⟨S100000x64, .f32⟩ : BufTy).Contents (Elt F))
    (hv47 : V (Proc.devRef .tc main_v47) = Read.val_main_v47 (F := F) x0 x1 x3 x4)
    (hv62 : V (Proc.devRef .tc main_v62) = Read.val_main_v62 (F := F) x0)
    (hv77 : V (Proc.devRef .tc main_v77) = Read.val_main_v77 (F := F) x1) :
    after (stretch (F := F) 118 6) V (Proc.devRef .tc main_v83) = Read.val_main_v83 (F := F) x0 x1 x3 x4 := by
  read_stretch
  rw [hv47, hv62, hv77]
  rfl

/-! ### Operation 124: the two entries joined -/

theorem s8_v84 (V : Valuation τ sig (Elt F)) (x0 x1 : (⟨S8192, .i32⟩ : BufTy).Contents (Elt F)) (x3 x4 : (⟨S100000x64, .f32⟩ : BufTy).Contents (Elt F))
    (hv82 : V (Proc.devRef .tc main_v82) = Read.val_main_v82 (F := F) x0 x1 x3 x4)
    (hv83 : V (Proc.devRef .tc main_v83) = Read.val_main_v83 (F := F) x0 x1 x3 x4) :
    after (stretch (F := F) 124 1) V (Proc.devRef .tc main_v84) = Read.val_main_v84 (F := F) x0 x1 x3 x4 := by
  read_stretch
  rw [hv82, hv83]
  rfl

/-! ### The whole list -/

/-- After all 125 operations, from any contents W of the buffers, the returned buffer holds the last stage of the
    staged reading at the four arguments it reads: each stretch is read at the buffers still to be read after it, and
    a buffer a stretch does not write keeps what it held. -/
theorem after_main_v84 (W : Valuation τ sig (Elt F)) :
    after (Value.ops (F := F)) W (Proc.devRef .tc main_v84)
      = Read.val_main_v84 (F := F) (W (Proc.devRef .tc main_arg0)) (W (Proc.devRef .tc main_arg1)) (W (Proc.devRef .tc main_arg3)) (W (Proc.devRef .tc main_arg4)) := by
  rw [ops_split]
  simp only [after_append]
  -- after operations 0 – 18
  generalize h1 : after (stretch (F := F) 0 19) W = V1
  have e1_11 : V1 (Proc.devRef .tc main_v11) = Read.val_main_v11 (F := F) (W (Proc.devRef .tc main_arg0)) (W (Proc.devRef .tc main_arg3)) := by rw [← h1]; exact s1_v11 W
  have e1_a0 : V1 (Proc.devRef .tc main_arg0) = W (Proc.devRef .tc main_arg0) := by rw [← h1]; exact s1_arg0 W
  have e1_a1 : V1 (Proc.devRef .tc main_arg1) = W (Proc.devRef .tc main_arg1) := by rw [← h1]; exact s1_arg1 W
  have e1_a4 : V1 (Proc.devRef .tc main_arg4) = W (Proc.devRef .tc main_arg4) := by rw [← h1]; exact s1_arg4 W
  clear h1
  -- after operations 19 – 37
  generalize h2 : after (stretch (F := F) 19 19) V1 = V2
  have e2_23 : V2 (Proc.devRef .tc main_v23) = Read.val_main_v23 (F := F) (W (Proc.devRef .tc main_arg1)) (W (Proc.devRef .tc main_arg4)) := by rw [← h2, s2_v23 V1, e1_a1, e1_a4]
  have e2_11 : V2 (Proc.devRef .tc main_v11) = Read.val_main_v11 (F := F) (W (Proc.devRef .tc main_arg0)) (W (Proc.devRef .tc main_arg3)) := by rw [← h2, s2_v11 V1, e1_11]
  have e2_a0 : V2 (Proc.devRef .tc main_arg0) = W (Proc.devRef .tc main_arg0) := by rw [← h2, s2_arg0 V1, e1_a0]
  have e2_a1 : V2 (Proc.devRef .tc main_arg1) = W (Proc.devRef .tc main_arg1) := by rw [← h2, s2_arg1 V1, e1_a1]
  clear h2
  -- after operations 38 – 55
  generalize h3 : after (stretch (F := F) 38 18) V2 = V3
  have e3_36 : V3 (Proc.devRef .tc main_v36) = Read.val_main_v36 (F := F) (W (Proc.devRef .tc main_arg0)) (W (Proc.devRef .tc main_arg1)) (W (Proc.devRef .tc main_arg3)) (W (Proc.devRef .tc main_arg4)) := by rw [← h3]; exact s3_v36 V2 _ _ _ _ e2_11 e2_23
  have e3_11 : V3 (Proc.devRef .tc main_v11) = Read.val_main_v11 (F := F) (W (Proc.devRef .tc main_arg0)) (W (Proc.devRef .tc main_arg3)) := by rw [← h3, s3_v11 V2, e2_11]
  have e3_23 : V3 (Proc.devRef .tc main_v23) = Read.val_main_v23 (F := F) (W (Proc.devRef .tc main_arg1)) (W (Proc.devRef .tc main_arg4)) := by rw [← h3, s3_v23 V2, e2_23]
  have e3_a0 : V3 (Proc.devRef .tc main_arg0) = W (Proc.devRef .tc main_arg0) := by rw [← h3, s3_arg0 V2, e2_a0]
  have e3_a1 : V3 (Proc.devRef .tc main_arg1) = W (Proc.devRef .tc main_arg1) := by rw [← h3, s3_arg1 V2, e2_a1]
  clear h3
  -- after operations 56 – 69
  generalize h4 : after (stretch (F := F) 56 14) V3 = V4
  have e4_47 : V4 (Proc.devRef .tc main_v47) = Read.val_main_v47 (F := F) (W (Proc.devRef .tc main_arg0)) (W (Proc.devRef .tc main_arg1)) (W (Proc.devRef .tc main_arg3)) (W (Proc.devRef .tc main_arg4)) := by rw [← h4]; exact s4_v47 V3 _ _ _ _ e3_11 e3_23
  have e4_36 : V4 (Proc.devRef .tc main_v36) = Read.val_main_v36 (F := F) (W (Proc.devRef .tc main_arg0)) (W (Proc.devRef .tc main_arg1)) (W (Proc.devRef .tc main_arg3)) (W (Proc.devRef .tc main_arg4)) := by rw [← h4, s4_v36 V3, e3_36]
  have e4_a0 : V4 (Proc.devRef .tc main_arg0) = W (Proc.devRef .tc main_arg0) := by rw [← h4, s4_arg0 V3, e3_a0]
  have e4_a1 : V4 (Proc.devRef .tc main_arg1) = W (Proc.devRef .tc main_arg1) := by rw [← h4, s4_arg1 V3, e3_a1]
  clear h4
  -- after operations 70 – 93
  generalize h5 : after (stretch (F := F) 70 24) V4 = V5
  have e5_62 : V5 (Proc.devRef .tc main_v62) = Read.val_main_v62 (F := F) (W (Proc.devRef .tc main_arg0)) := by rw [← h5, s5_v62 V4, e4_a0]
  have e5_36 : V5 (Proc.devRef .tc main_v36) = Read.val_main_v36 (F := F) (W (Proc.devRef .tc main_arg0)) (W (Proc.devRef .tc main_arg1)) (W (Proc.devRef .tc main_arg3)) (W (Proc.devRef .tc main_arg4)) := by rw [← h5, s5_v36 V4, e4_36]
  have e5_47 : V5 (Proc.devRef .tc main_v47) = Read.val_main_v47 (F := F) (W (Proc.devRef .tc main_arg0)) (W (Proc.devRef .tc main_arg1)) (W (Proc.devRef .tc main_arg3)) (W (Proc.devRef .tc main_arg4)) := by rw [← h5, s5_v47 V4, e4_47]
  have e5_a1 : V5 (Proc.devRef .tc main_arg1) = W (Proc.devRef .tc main_arg1) := by rw [← h5, s5_arg1 V4, e4_a1]
  clear h5
  -- after operations 94 – 117
  generalize h6 : after (stretch (F := F) 94 24) V5 = V6
  have e6_77 : V6 (Proc.devRef .tc main_v77) = Read.val_main_v77 (F := F) (W (Proc.devRef .tc main_arg1)) := by rw [← h6, s6_v77 V5, e5_a1]
  have e6_36 : V6 (Proc.devRef .tc main_v36) = Read.val_main_v36 (F := F) (W (Proc.devRef .tc main_arg0)) (W (Proc.devRef .tc main_arg1)) (W (Proc.devRef .tc main_arg3)) (W (Proc.devRef .tc main_arg4)) := by rw [← h6, s6_v36 V5, e5_36]
  have e6_47 : V6 (Proc.devRef .tc main_v47) = Read.val_main_v47 (F := F) (W (Proc.devRef .tc main_arg0)) (W (Proc.devRef .tc main_arg1)) (W (Proc.devRef .tc main_arg3)) (W (Proc.devRef .tc main_arg4)) := by rw [← h6, s6_v47 V5, e5_47]
  have e6_62 : V6 (Proc.devRef .tc main_v62) = Read.val_main_v62 (F := F) (W (Proc.devRef .tc main_arg0)) := by rw [← h6, s6_v62 V5, e5_62]
  clear h6
  -- after operations 118 – 123
  generalize h7 : after (stretch (F := F) 118 6) V6 = V7
  have e7_82 : V7 (Proc.devRef .tc main_v82) = Read.val_main_v82 (F := F) (W (Proc.devRef .tc main_arg0)) (W (Proc.devRef .tc main_arg1)) (W (Proc.devRef .tc main_arg3)) (W (Proc.devRef .tc main_arg4)) := by rw [← h7]; exact s7_v82 V6 _ _ _ _ e6_36
  have e7_83 : V7 (Proc.devRef .tc main_v83) = Read.val_main_v83 (F := F) (W (Proc.devRef .tc main_arg0)) (W (Proc.devRef .tc main_arg1)) (W (Proc.devRef .tc main_arg3)) (W (Proc.devRef .tc main_arg4)) := by rw [← h7]; exact s7_v83 V6 _ _ _ _ e6_47 e6_62 e6_77
  clear h7
  -- operation 124
  exact s8_v84 V7 _ _ _ _ e7_82 e7_83

/-- The reference's run: every weakly fair execution terminates with the returned buffer at the last stage of the
    staged reading of the four arguments it reads, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84)
        = Read.val_main_v84 (F := F) (m ((c.tc : Thread nD τ).loc main_arg0)) (m ((c.tc : Thread nD τ).loc main_arg1))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans (after_main_v84 (launchContents m c)), (h c).2⟩)
    (Value.run (F := F) m ρ)

end Cert.ReferenceIdeal.RefValue

end
-- ==== Proof.KI.Totals.lean ====
/-
  The two totals the closing host operations form from the two block arrays.

  The first array holds the matched-pair terms of the 8192 rows laid out [8, 8, 128]; the second holds,
  at the same positions, zero plus the row's all-pairs terms summed over the 8192 columns in 8 blocks
  of 1024.  The host's sum of each array is the zero word plus the plain sum over rows (and columns):
  a regrouping of finite sums in an additive commutative monoid.
-/
import proofs.«134188_j81071802679459_2_alg».proof.Proof.KI.Tail
import proofs.«134188_j81071802679459_2_alg».proof.Proof.KI.UpArray
import proofs.«134188_j81071802679459_2_alg».proof.Proof.KI.CrossArray
import proofs.«134188_j81071802679459_2_alg».proof.Proof.SumLayout
import proofs.«134188_j81071802679459_2_alg».proof.Proof.Spec

noncomputable section

namespace Cert.KernelIdeal.HandValue

open Cert.KernelIdeal Cert.KernelIdeal.Gen
open Idealize.ShloMosaic Idealize.ShloMosaic.TcCoe Idealize.ShloMosaic.ValueIdx

/-- The host's sum of the matched-pair array: the zero word plus the sum over all rows. -/
theorem up_total (A B : (⟨2, ![8192, 64]⟩ : Shape).Idx → EReal) :
    Host.reduceAdd (F := Ideal) (upArr A B) (constant (F := Ideal) S_ .f32 0x00000000#32)
        reducesTo_S8x8x128_S_d0_1_2 h_S_
      = fun _ => (Ideal.ofBits .f32 0x00000000#32 : EReal) + ∑ r : Fin 8192, Cert.Spec.upAt A B r := by
  refine (reduce_blocks (upArr A B)).trans ?_
  funext _
  refine congrArg (fun s => (Ideal.ofBits .f32 0x00000000#32 : EReal) + s) ?_
  have h : ∀ (t a : Fin 8) (b : Fin 128), upArr A B (ix3 t a b)
      = Cert.Spec.upAt A B ⟨t.val * 1024 + a.val * 128 + b.val, by omega⟩ := fun t a b => rfl
  simp only [h]
  exact Cert.SumLayout.sum_rows (fun r => Cert.Spec.upAt A B r)

/-- The host's sum of the all-pairs array: the zero word plus the sum over all rows and columns. -/
theorem down_total (A B : (⟨2, ![8192, 64]⟩ : Shape).Idx → EReal) :
    Host.reduceAdd (F := Ideal) (crossArr A B) (constant (F := Ideal) S_ .f32 0x00000000#32)
        reducesTo_S8x8x128_S_d0_1_2 h_S_
      = fun _ => (Ideal.ofBits .f32 0x00000000#32 : EReal)
          + ∑ r : Fin 8192, ∑ c : Fin 8192, Cert.Spec.downAt A B r c := by
  refine (reduce_blocks (crossArr A B)).trans ?_
  funext _
  refine congrArg (fun s => (Ideal.ofBits .f32 0x00000000#32 : EReal) + s) ?_
  have h : ∀ (t a : Fin 8) (b : Fin 128), crossArr A B (ix3 t a b)
      = ∑ jj : Fin 8, ∑ q : Fin 1024,
          Cert.Spec.downAt A B ⟨t.val * 1024 + a.val * 128 + b.val, by omega⟩
            ⟨jj.val * 1024 + q.val, by omega⟩ := fun t a b => by
    show zeroE + _ = _
    rw [show zeroE = (0 : EReal) from Ideal.ofBits_zero_f32, zero_add]
  simp only [h]
  exact Cert.SumLayout.sum_rows_cols (fun r c => Cert.Spec.downAt A B r c)

end Cert.KernelIdeal.HandValue
-- ==== Proof.RefValue.lean ====
/-
  The reference program's result, read as mathematics.

  The reference gathers 8192 user rows and 8192 item rows of 64 entries, divides every row by its
  clamped Euclidean length, and forms two scalars from the cosine scores of those directions:

  * the matched-pair total: the zero word plus the sum over rows r of log (term (cosim u_r p_r));
  * the all-pairs total: the zero word plus the sum over rows r and c of term (cosim u_r p_c).

  Both are stated here with the shared definitions of the specification module, index by index, and the
  returned vector of two entries is stated over those two totals.
-/
import proofs.«134188_j81071802679459_2_alg».proof.Proof.PRead
import proofs.«134188_j81071802679459_2_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- A sum over a one-coordinate index set is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

section Rows

variable (x0 x1 : (⟨S8192, .i32⟩ : BufTy).Contents (Elt Ideal))
  (x3 x4 : (⟨S100000x64, .f32⟩ : BufTy).Contents (Elt Ideal))

/-! ## Lengths and directions of the gathered rows -/

/-- The clamped length of user row r: max (sqrt (0 + sum of squares)) eps. -/
theorem lenU_apply (r : Fin 8192) :
    Read.val_main_v9 (F := Ideal) x0 x3 (ix2 r (0 : Fin 1))
      = Cert.Spec.len (Cert.Spec.row (Read.val_main_v6 x0 x3) r) := by
  have e1 : Read.idx_main_call0_v2 (ix2 r (0 : Fin 1)) = ix1 r :=
    funext fun a => Fin.ext (by match a with | ⟨0, _⟩ => rfl)
  have e2 : ∀ k : Fin 64, Read.idx_main_call0_v1 (ix1 r) k = ix2 r k := fun k =>
    funext fun a => Fin.ext (by match a with | ⟨0, _⟩ => rfl | ⟨1, _⟩ => rfl)
  rw [Read.val_main_v9_apply, Read.val_main_v7_apply, Read.val_main_call0_v2_apply, e1,
    Read.val_main_call0_v1_apply, Read.val_main_v8_apply, Read.val_main_cst_apply,
    Read.val_main_call0_cst_apply]
  simp only [e2, Read.val_main_call0_v0_apply, Ideal.maximumf_def, Ideal.hostUnary_sqrt_def,
    Ideal.mulf_def, Ideal.ofBits_def, Ideal.ofBits_zero_f32, zero_add]
  rfl

/-- The clamped length of item row r. -/
theorem lenP_apply (r : Fin 8192) :
    Read.val_main_v21 (F := Ideal) x1 x4 (ix2 r (0 : Fin 1))
      = Cert.Spec.len (Cert.Spec.row (Read.val_main_v18 x1 x4) r) := by
  have e1 : Read.idx_main_call1_v2 (ix2 r (0 : Fin 1)) = ix1 r :=
    funext fun a => Fin.ext (by match a with | ⟨0, _⟩ => rfl)
  have e2 : ∀ k : Fin 64, Read.idx_main_call1_v1 (ix1 r) k = ix2 r k := fun k =>
    funext fun a => Fin.ext (by match a with | ⟨0, _⟩ => rfl | ⟨1, _⟩ => rfl)
  rw [Read.val_main_v21_apply, Read.val_main_v19_apply, Read.val_main_call1_v2_apply, e1,
    Read.val_main_call1_v1_apply, Read.val_main_v20_apply, Read.val_main_cst_3_apply,
    Read.val_main_call1_cst_apply]
  simp only [e2, Read.val_main_call1_v0_apply, Ideal.maximumf_def, Ideal.hostUnary_sqrt_def,
    Ideal.mulf_def, Ideal.ofBits_def, Ideal.ofBits_zero_f32, zero_add]
  rfl

/-- Entry k of user row r divided by the row's clamped length. -/
theorem dirU_apply (r : Fin 8192) (k : Fin 64) :
    Read.val_main_v11 (F := Ideal) x0 x3 (ix2 r k)
      = Cert.Spec.dir (Cert.Spec.row (Read.val_main_v6 x0 x3) r) k := by
  have e : Read.idx_main_v10 (ix2 r k) = ix2 r (0 : Fin 1) :=
    funext fun a => Fin.ext (by match a with | ⟨0, _⟩ => rfl | ⟨1, _⟩ => rfl)
  rw [Read.val_main_v11_apply, Read.val_main_v10_apply, e, lenU_apply, Ideal.hostDivf_def]
  rfl

/-- Entry k of item row r divided by the row's clamped length. -/
theorem dirP_apply (r : Fin 8192) (k : Fin 64) :
    Read.val_main_v23 (F := Ideal) x1 x4 (ix2 r k)
      = Cert.Spec.dir (Cert.Spec.row (Read.val_main_v18 x1 x4) r) k := by
  have e : Read.idx_main_v22 (ix2 r k) = ix2 r (0 : Fin 1) :=
    funext fun a => Fin.ext (by match a with | ⟨0, _⟩ => rfl | ⟨1, _⟩ => rfl)
  rw [Read.val_main_v23_apply, Read.val_main_v22_apply, e, lenP_apply, Ideal.hostDivf_def]
  rfl

/-! ## The matched pairs -/

/-- The score of user row r against item row r. -/
theorem pair_apply (r : Fin 8192) :
    Read.val_main_v25 (F := Ideal) x0 x1 x3 x4 (ix1 r)
      = Cert.Spec.cosim (Cert.Spec.row (Read.val_main_v6 x0 x3) r) (Cert.Spec.row (Read.val_main_v18 x1 x4) r) := by
  have e : ∀ k : Fin 64, Read.idx_main_v25 (ix1 r) k = ix2 r k := fun k =>
    funext fun a => Fin.ext (by match a with | ⟨0, _⟩ => rfl | ⟨1, _⟩ => rfl)
  rw [Read.val_main_v25_apply, Read.val_main_cst_4_apply]
  simp only [e, Read.val_main_v24_apply, dirU_apply, dirP_apply, Ideal.mulf_def, Ideal.ofBits_def,
    Ideal.ofBits_zero_f32, zero_add]
  rfl

/-- The matched-pair term of row r. -/
theorem up_apply (r : Fin 8192) :
    Read.val_main_v34 (F := Ideal) x0 x1 x3 x4 (ix1 r)
      = Cert.Spec.upAt (Read.val_main_v6 x0 x3) (Read.val_main_v18 x1 x4) r := by
  rw [Read.val_main_v34_apply, Read.val_main_v33_apply, Read.val_main_v28_apply, Read.val_main_v27_apply,
    Read.val_main_v32_apply, Read.val_main_v31_apply, Read.val_main_v29_apply, pair_apply,
    Read.val_main_v26_apply, Read.val_main_cst_5_apply, Read.val_main_v30_apply, Read.val_main_cst_6_apply]
  simp only [Ideal.hostUnary_log_def, Ideal.hostUnary_exp_def, Ideal.addf_def, Ideal.hostDivf_def,
    Ideal.mulf_def, Ideal.ofBits_def]
  rfl

/-- The reference's matched-pair total: the zero word plus the sum of the matched-pair terms. -/
theorem up_sum :
    Read.val_main_v35 (F := Ideal) x0 x1 x3 x4
      = fun _ => (Ideal.ofBits .f32 0x00000000#32 : EReal)
          + ∑ r : Fin 8192, Cert.Spec.upAt (Read.val_main_v6 x0 x3) (Read.val_main_v18 x1 x4) r := by
  funext i
  rw [Read.val_main_v35_apply, Read.val_main_cst_7_apply, Ideal.ofBits_def]
  refine congrArg (_ + ·) ((sum_idx1 _).trans (Finset.sum_congr rfl fun r _ => ?_))
  exact up_apply x0 x1 x3 x4 r

/-! ## All pairs -/

/-- The score of user row r against item row c. -/
theorem cross_apply (r c : Fin 8192) :
    Read.val_main_v38 (F := Ideal) x0 x1 x3 x4 (ix2 r c)
      = Cert.Spec.cosim (Cert.Spec.row (Read.val_main_v6 x0 x3) r) (Cert.Spec.row (Read.val_main_v18 x1 x4) c) := by
  have el : ∀ k : Fin 64, Read.lidx_main_v38 (ix2 r c) k = ix2 r k := fun k =>
    funext fun a => Fin.ext (by match a with | ⟨0, _⟩ => rfl | ⟨1, _⟩ => rfl)
  have er : ∀ k : Fin 64, Read.ridx_main_v38 (ix2 r c) k = ix2 k c := fun k =>
    funext fun a => Fin.ext (by match a with | ⟨0, _⟩ => rfl | ⟨1, _⟩ => rfl)
  have et : ∀ k : Fin 64, Read.idx_main_v37 (ix2 k c) = ix2 c k := fun k =>
    funext fun a => Fin.ext (by match a with | ⟨0, _⟩ => rfl | ⟨1, _⟩ => rfl)
  rw [Read.val_main_v38_apply]
  simp only [el, er, Read.val_main_v37_apply, et, dirU_apply, dirP_apply]
  rfl

/-- The all-pairs term of rows r, c. -/
theorem down_apply (r c : Fin 8192) :
    Read.val_main_v46 (F := Ideal) x0 x1 x3 x4 (ix2 r c)
      = Cert.Spec.downAt (Read.val_main_v6 x0 x3) (Read.val_main_v18 x1 x4) r c := by
  rw [Read.val_main_v46_apply, Read.val_main_v41_apply, Read.val_main_v40_apply, Read.val_main_v45_apply,
    Read.val_main_v44_apply, Read.val_main_v42_apply, cross_apply, Read.val_main_v39_apply,
    Read.val_main_cst_9_apply, Read.val_main_v43_apply, Read.val_main_cst_10_apply]
  simp only [Ideal.hostUnary_exp_def, Ideal.addf_def, Ideal.hostDivf_def, Ideal.mulf_def, Ideal.ofBits_def]
  rfl

/-- The reference's all-pairs total: the zero word plus the double sum of the all-pairs terms. -/
theorem down_sum :
    Read.val_main_v47 (F := Ideal) x0 x1 x3 x4
      = fun _ => (Ideal.ofBits .f32 0x00000000#32 : EReal)
          + ∑ r : Fin 8192, ∑ c : Fin 8192,
              Cert.Spec.downAt (Read.val_main_v6 x0 x3) (Read.val_main_v18 x1 x4) r c := by
  funext i
  rw [Read.val_main_v47_apply, Read.val_main_cst_11_apply, Ideal.ofBits_def]
  refine congrArg (_ + ·) ((sum_idx2 _).trans
    (Finset.sum_congr rfl fun r _ => Finset.sum_congr rfl fun c _ => ?_))
  exact down_apply x0 x1 x3 x4 r c

/-- The matched-pair total with the zero word evaluated: the plain sum. -/
theorem up_sum_plain :
    Read.val_main_v35 (F := Ideal) x0 x1 x3 x4
      = fun _ => ∑ r : Fin 8192, Cert.Spec.upAt (Read.val_main_v6 x0 x3) (Read.val_main_v18 x1 x4) r := by
  rw [up_sum]
  simp only [Ideal.ofBits_zero_f32, zero_add]

/-- The all-pairs total with the zero word evaluated: the plain double sum. -/
theorem down_sum_plain :
    Read.val_main_v47 (F := Ideal) x0 x1 x3 x4
      = fun _ => ∑ r : Fin 8192, ∑ c : Fin 8192,
          Cert.Spec.downAt (Read.val_main_v6 x0 x3) (Read.val_main_v18 x1 x4) r c := by
  rw [down_sum]
  simp only [Ideal.ofBits_zero_f32, zero_add]

/-! ## The returned vector over the two totals -/

/-- The two entries the reference returns: minus the matched-pair total over 8192, and the logarithm of
    the all-pairs total over the product of the two distinct-index counts. -/
theorem result_eq :
    Read.val_main_v84 (F := Ideal) x0 x1 x3 x4
      = concatenate S2 0
          [⟨S1, broadcastInDim S1 ![] bcast_S_S1
              (Host.negf (F := Ideal) (Host.divf (F := Ideal) (Read.val_main_v35 (F := Ideal) x0 x1 x3 x4)
                (constant (F := Ideal) S_ .f32 0x46000000#32)))⟩,
           ⟨S1, broadcastInDim S1 ![] bcast_S_S1
              (Host.log (F := Ideal) (Host.divf (F := Ideal) (Read.val_main_v47 (F := Ideal) x0 x1 x3 x4)
                (mulf (Read.val_main_v62 (F := Ideal) x0) (Read.val_main_v77 (F := Ideal) x1))))⟩]
          concatenates_S1_S1_S2_d0 := rfl

end Rows

end Cert.ReferenceIdeal.RefValue

end
-- ==== Proof.Ident.lean ====
/- The two programs spell the same host chains: the wrapped-index gather of a table's rows and the count of
   the distinct table positions an identifier vector hits. Each stage of the one is the same operation on the
   same operands as the other's, so the two readings are one function. -/
import proofs.«134188_j81071802679459_2_alg».proof.Proof.KI.Entry
import proofs.«134188_j81071802679459_2_alg».proof.Proof.KI.Tail
import proofs.«134188_j81071802679459_2_alg».proof.Proof.PRead

set_option maxRecDepth 16384

noncomputable section

namespace Cert.Proof.Ident

open Idealize.ShloMosaic

/-- The reference's gathered user rows are the wrapped-index gather of the user table. -/
theorem rowsU (x0 : (⟨Cert.ReferenceIdeal.S8192, .i32⟩ : BufTy).Contents (Elt Ideal))
    (x3 : (⟨Cert.ReferenceIdeal.S100000x64, .f32⟩ : BufTy).Contents (Elt Ideal)) :
    Cert.ReferenceIdeal.Read.val_main_v6 (F := Ideal) x0 x3 = Cert.KernelIdeal.HandValue.rowsOf x3 x0 := by
  unfold Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c_0 Cert.ReferenceIdeal.Read.val_main_c
  unfold Cert.KernelIdeal.HandValue.rowsOf
  rfl

/-- The reference's gathered item rows are the wrapped-index gather of the item table. -/
theorem rowsP (x1 : (⟨Cert.ReferenceIdeal.S8192, .i32⟩ : BufTy).Contents (Elt Ideal))
    (x4 : (⟨Cert.ReferenceIdeal.S100000x64, .f32⟩ : BufTy).Contents (Elt Ideal)) :
    Cert.ReferenceIdeal.Read.val_main_v18 (F := Ideal) x1 x4 = Cert.KernelIdeal.HandValue.rowsOf x4 x1 := by
  unfold Cert.ReferenceIdeal.Read.val_main_v18 Cert.ReferenceIdeal.Read.val_main_v17 Cert.ReferenceIdeal.Read.val_main_v16
    Cert.ReferenceIdeal.Read.val_main_v15 Cert.ReferenceIdeal.Read.val_main_v14 Cert.ReferenceIdeal.Read.val_main_v13
    Cert.ReferenceIdeal.Read.val_main_v12 Cert.ReferenceIdeal.Read.val_main_c_2 Cert.ReferenceIdeal.Read.val_main_c_1
  unfold Cert.KernelIdeal.HandValue.rowsOf
  rfl

/-- The reference's count of distinct user identifiers is the counting chain of the user identifiers. -/
theorem count0 (x0 : (⟨Cert.ReferenceIdeal.S8192, .i32⟩ : BufTy).Contents (Elt Ideal)) :
    Cert.ReferenceIdeal.Read.val_main_v62 (F := Ideal) x0 = Cert.KernelIdeal.HandValue.countOf x0 := by
  unfold Cert.ReferenceIdeal.Read.val_main_v62 Cert.ReferenceIdeal.Read.val_main_v61 Cert.ReferenceIdeal.Read.val_main_v60
    Cert.ReferenceIdeal.Read.val_main_v59 Cert.ReferenceIdeal.Read.val_main_v58 Cert.ReferenceIdeal.Read.val_main_v57
    Cert.ReferenceIdeal.Read.val_main_v56 Cert.ReferenceIdeal.Read.val_main_v55 Cert.ReferenceIdeal.Read.val_main_v54
    Cert.ReferenceIdeal.Read.val_main_v53 Cert.ReferenceIdeal.Read.val_main_v52 Cert.ReferenceIdeal.Read.val_main_v51
    Cert.ReferenceIdeal.Read.val_main_v50 Cert.ReferenceIdeal.Read.val_main_v49 Cert.ReferenceIdeal.Read.val_main_v48
    Cert.ReferenceIdeal.Read.val_main_call2_v1 Cert.ReferenceIdeal.Read.val_main_call2_v0
    Cert.ReferenceIdeal.Read.val_main_c_18 Cert.ReferenceIdeal.Read.val_main_c_17 Cert.ReferenceIdeal.Read.val_main_c_16
    Cert.ReferenceIdeal.Read.val_main_c_15 Cert.ReferenceIdeal.Read.val_main_c_14 Cert.ReferenceIdeal.Read.val_main_c_13
    Cert.ReferenceIdeal.Read.val_main_c_12
  unfold Cert.KernelIdeal.HandValue.countOf Cert.KernelIdeal.HandValue.wrapOf Cert.KernelIdeal.HandValue.clipOf
  rfl

/-- The reference's count of distinct item identifiers is the counting chain of the item identifiers. -/
theorem count1 (x1 : (⟨Cert.ReferenceIdeal.S8192, .i32⟩ : BufTy).Contents (Elt Ideal)) :
    Cert.ReferenceIdeal.Read.val_main_v77 (F := Ideal) x1 = Cert.KernelIdeal.HandValue.countOf x1 := by
  unfold Cert.ReferenceIdeal.Read.val_main_v77 Cert.ReferenceIdeal.Read.val_main_v76 Cert.ReferenceIdeal.Read.val_main_v75
    Cert.ReferenceIdeal.Read.val_main_v74 Cert.ReferenceIdeal.Read.val_main_v73 Cert.ReferenceIdeal.Read.val_main_v72
    Cert.ReferenceIdeal.Read.val_main_v71 Cert.ReferenceIdeal.Read.val_main_v70 Cert.ReferenceIdeal.Read.val_main_v69
    Cert.ReferenceIdeal.Read.val_main_v68 Cert.ReferenceIdeal.Read.val_main_v67 Cert.ReferenceIdeal.Read.val_main_v66
    Cert.ReferenceIdeal.Read.val_main_v65 Cert.ReferenceIdeal.Read.val_main_v64 Cert.ReferenceIdeal.Read.val_main_v63
    Cert.ReferenceIdeal.Read.val_main_call3_v1 Cert.ReferenceIdeal.Read.val_main_call3_v0
    Cert.ReferenceIdeal.Read.val_main_c_25 Cert.ReferenceIdeal.Read.val_main_c_24 Cert.ReferenceIdeal.Read.val_main_c_23
    Cert.ReferenceIdeal.Read.val_main_c_22 Cert.ReferenceIdeal.Read.val_main_c_21 Cert.ReferenceIdeal.Read.val_main_c_20
    Cert.ReferenceIdeal.Read.val_main_c_19
  unfold Cert.KernelIdeal.HandValue.countOf Cert.KernelIdeal.HandValue.wrapOf Cert.KernelIdeal.HandValue.clipOf
  rfl

end Cert.Proof.Ident

end
-- ==== Proof.Bridge.lean ====
/-
  The two idealized programs compute one function.

  The reference forms, for the 8192 gathered user rows u and item rows p, the matched-pair terms
  log (exp (s_rr / T) + exp (s_rr² / T)) and the all-pairs terms exp (s_rc / T) + exp (s_rc² / T) of the cosine scores s,
  sums each family whole, and closes with a mean, a quotient by the product of the two distinct counts, a logarithm and a
  negation. The kernel program forms the same terms block by block — eight blocks of 1024 rows, and for the all-pairs
  family eight column blocks accumulated per row — and sums the blocks' partial results. Addition of extended reals is
  commutative and associative with no side condition, so regrouping 8192 rows as 8 × 8 × 128 and 8192 columns as
  8 × 1024 changes no sum; the closing operations are the same on both sides.
-/
import proofs.«134188_j81071802679459_2_alg».proof.Defs
import proofs.«134188_j81071802679459_2_alg».proof.Proof.KI.KernelValue
import proofs.«134188_j81071802679459_2_alg».proof.Proof.KI.Totals
import proofs.«134188_j81071802679459_2_alg».proof.Proof.RefValue
import proofs.«134188_j81071802679459_2_alg».proof.Proof.Ident

noncomputable section
namespace Cert.Proof.Bridge
open Idealize.ShloMosaic Idealize.ShloMosaic.TcCoe Idealize.SL.Sem
open Cert.KernelIdeal.HandValue

/-- The reference's result, as a function of the four arguments it reads, is the kernel program's. -/
theorem ref_is_kernel (x0 x1 : (⟨Cert.ReferenceIdeal.S8192, .i32⟩ : BufTy).Contents (Elt Ideal))
    (x3 x4 : (⟨Cert.ReferenceIdeal.S100000x64, .f32⟩ : BufTy).Contents (Elt Ideal)) :
    Cert.ReferenceIdeal.Read.val_main_v84 (F := Ideal) x0 x1 x3 x4
      = finishOf (upArr (rowsOf x3 x0) (rowsOf x4 x1)) (crossArr (rowsOf x3 x0) (rowsOf x4 x1)) (countOf x0) (countOf x1) := by
  rw [Cert.ReferenceIdeal.RefValue.result_eq, Cert.ReferenceIdeal.RefValue.up_sum, Cert.ReferenceIdeal.RefValue.down_sum,
    Cert.Proof.Ident.rowsU, Cert.Proof.Ident.rowsP, Cert.Proof.Ident.count0, Cert.Proof.Ident.count1]
  unfold finishOf
  rw [up_total, down_total]

end Cert.Proof.Bridge
end
-- ==== Proof.lean ====
/-
  The certificate of the contrastive loss kernel against its reference.

  The claim has five parts. The three frames say each program runs to the end, faults nowhere and leaves its argument
  arrays as launched: for the kernel program (at the word level and at the extended reals) that is the run of its host
  stretches and its two pipelined regions with the buffers' contents tracked from item to item; for the reference it is
  its list of host operations run in order. The idealization rewrote nothing, so that part is trivial. The value part:
  from memories agreeing on the arguments both idealized programs end with the same two numbers — minus the mean of the
  matched-pair terms, and the logarithm of the all-pairs total over the product of the distinct counts — because the
  kernel's blocks of per-row terms and per-row partial sums regroup the reference's sums, and sums of extended reals may be
  regrouped freely.
-/
import proofs.«134188_j81071802679459_2_alg».proof.Defs
import proofs.«134188_j81071802679459_2_alg».proof.Proof.Gen.Kernel
import proofs.«134188_j81071802679459_2_alg».proof.Proof.Gen.KernelIdeal
import proofs.«134188_j81071802679459_2_alg».proof.Proof.Gen.ReferenceIdeal
import proofs.«134188_j81071802679459_2_alg».proof.Proof.Gen.Pre_finite_inputs
import proofs.«134188_j81071802679459_2_alg».proof.Proof.K.Run
import proofs.«134188_j81071802679459_2_alg».proof.Proof.KI.Run
import proofs.«134188_j81071802679459_2_alg».proof.Proof.KI.KernelValue
import proofs.«134188_j81071802679459_2_alg».proof.Proof.RefFrame
import proofs.«134188_j81071802679459_2_alg».proof.Proof.RefRun
import proofs.«134188_j81071802679459_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- From memories agreeing on the arguments the two idealized programs end with equal results. -/
theorem algebraic : Cert.algebraic_KernelIdeal_ReferenceIdeal := by
  intro m ρ m' ρ' _ hagree
  refine ⟨fun c => Cert.KernelIdeal.Hand.W8 (F := Ideal) m ρ c (Proc.devRef .tc Cert.KernelIdeal.main_v55),
    Cert.KernelIdeal.Hand.run_value m ρ, ?_⟩
  refine (θ_run Cert.ReferenceIdeal.defs _ _).mono (fun r h c => ⟨(h c).1.trans ?_, (h c).2⟩)
    (Cert.ReferenceIdeal.RefValue.ref_run m' ρ')
  obtain ⟨h0, h1, -, h3, h4⟩ := hagree c
  rw [h0, h1, h3, h4]
  exact (Cert.Proof.Bridge.ref_is_kernel _ _ _ _).trans (Cert.KernelIdeal.HandValue.kernel_result m ρ c).symm

theorem claim : Cert.Claim :=
  ⟨Cert.Kernel.Gen.facts, Cert.KernelIdeal.Gen.facts, Cert.ReferenceIdeal.Gen.facts, Cert.Pre_finite_inputs.Gen.facts,
    frame_k, frame_ki, Cert.Proof.Ref.frame_ri, trivial, algebraic⟩

end Cert.Proof

end
